-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S10000x128 : Shape := ⟨2, ![10000, 128]⟩
abbrev S10000x1 : Shape := ⟨2, ![10000, 1]⟩
abbrev S1700000x128 : Shape := ⟨2, ![1700000, 128]⟩
abbrev S1x128 : Shape := ⟨2, ![1, 128]⟩

abbrev nBuf : Space → Nat
  | .hbm => 81
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x128, .f32⟩
  | .hbm, ⟨43, _⟩ => ⟨S_, .f32⟩
  | .hbm, ⟨44, _⟩ => ⟨S100000x128, .f32⟩
  | .hbm, ⟨45, _⟩ => ⟨S1700000x1, .i32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x128, .f32⟩
  | .hbm, ⟨80, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S10000x1, .f32⟩
  | .local _ .vmem, ⟨18, _⟩ => ⟨S10000x1, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x128, .f32⟩
  | .local _ .vmem, ⟨31, _⟩ => ⟨S10000x1, .f32⟩
  | .local _ .vmem, ⟨32, _⟩ => ⟨S10000x1, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x1, .f32⟩
  | .local _ .vmem, ⟨38, _⟩ => ⟨S10000x1, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S100000x128.size a
  hwx4_3 : ∀ i : grid4.Coords, EltTy.bits .f32 = 32 ∨ (Rect.block (s := S100000x128) S10000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .f32 = 32 ∨ (Rect.block (s := S100000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S100000x128.size a
  hwx5_3 : ∀ i : grid5.Coords, EltTy.bits .f32 = 32 ∨ (Rect.block (s := S100000x128) S10000x128.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v43) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v17) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v44) S10000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v54) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v55) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x128, .f32⟩
  | .hbm, ⟨101, _⟩ => ⟨S1700000x1, .f32⟩
  | .hbm, ⟨102, _⟩ => ⟨S1700000x128, .f32⟩
  | .hbm, ⟨103, _⟩ => ⟨S1700000x128, .f32⟩
  | .hbm, ⟨104, _⟩ => ⟨S_, .f32⟩
  | .hbm, ⟨105, _⟩ => ⟨S100000x128, .f32⟩
  | .hbm, ⟨106, _⟩ => ⟨S1700000x1, .i32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.LibGatherRows.lean ====
/-
  The host's gather, for row gathers, read at an index.

  A ROW GATHER has start indices of shape [E, 1] holding one row number each; that number names the operand's
  axis 0, which is collapsed; the operand's remaining axes (none, or one axis of C columns) are taken whole. Result
  row a is then the operand's row (rowOf G a): the start index G (a, 0) read signed and clamped into [0, N - 1], as
  the gather clamps every start index so that the slice fits. So

    result (a)    = operand (rowOf G a)         (no columns)
    result (a, c) = operand (rowOf G a, c)      (C columns)

  for any sizes N (operand rows, positive), E (result rows), C (columns) and any index width. The lemmas are stated
  for the dimension numbers as a record built from any proof of their well-formedness (`dims1 wf`, `dims2 wf`); a
  program's own record of the same lists is that record, so they apply to it by unification.
-/
import Idealize.ShloMosaic.Lib.ValueIdx

noncomputable section

namespace Cert.GatherRows

open Idealize.ShloMosaic Idealize.ShloMosaic.ValueIdx

variable {α : Type} {N E C w : Nat}

/-- The operand row a start index names: read signed, clamped into [0, N - 1]. -/
def rowOf (hN : 0 < N) (G : IVec ⟨2, ![E, 1]⟩ w) (a : Fin E) : Fin N :=
  ⟨min (G (ix2 a 0)).toInt.toNat (N - 1), by omega⟩

/-- A start index that reads as a row number in range names that row. -/
theorem rowOf_eq (hN : 0 < N) (G : IVec ⟨2, ![E, 1]⟩ w) (a : Fin E) (r : Fin N) (h : (G (ix2 a 0)).toInt = (r.val : ℤ)) :
    rowOf hN G a = r := by
  apply Fin.ext
  have := r.isLt
  show min (G (ix2 a 0)).toInt.toNat (N - 1) = r.val
  rw [h]
  simp only [Int.toNat_natCast]
  omega

/-- The 1-D gather's dimension numbers, over any sizes. -/
abbrev dims1 (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- The row gather's dimension numbers, over any sizes. -/
abbrev dims2 (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ := ⟨[1], [0], [], [], [0], 1, ![1, C], wf⟩

/-- THE 1-D GATHER READ AT a: the operand at the row the start index names. -/
theorem gather1_apply (hN : 0 < N) (wf) (x : (⟨1, ![N]⟩ : Shape).Idx → α) (G : IVec ⟨2, ![E, 1]⟩ w) (a : Fin E) :
    Host.gather (dims1 (N := N) (E := E) wf) x G (ix1 a) = x (ix1 (rowOf hN G a)) := by
  unfold Host.gather
  congr 1
  funext b
  obtain rfl : b = 0 := Subsingleton.elim _ _
  refine Fin.ext ?_
  show (dims1 (N := N) (E := E) wf).start (ix1 a) G 0 + (dims1 (N := N) (E := E) wf).batchCoord (ix1 a) 0
      + (dims1 (N := N) (E := E) wf).offCoord (ix1 a) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dims1 (N := N) (E := E) wf).startIndexMap from List.mem_singleton.mpr rfl)]
  have hsi : (dims1 (N := N) (E := E) wf).siIdx (ix1 a) ⟨List.idxOf (0 : Fin 1) (dims1 (N := N) (E := E) wf).startIndexMap,
      List.idxOf_lt_length_iff.2 (List.mem_singleton.mpr rfl)⟩ = ix2 a 0 := by
    funext c; refine Fin.ext ?_
    match c with
    | ⟨0, _⟩ => rfl
    | ⟨1, _⟩ => rfl
  rw [hsi]
  rfl

/-- THE ROW GATHER READ AT (a, c): the operand at the row the start index names, same column. -/
theorem gather2_apply (hN : 0 < N) (wf) (x : (⟨2, ![N, C]⟩ : Shape).Idx → α) (G : IVec ⟨2, ![E, 1]⟩ w) (a : Fin E) (c : Fin C) :
    Host.gather (dims2 (N := N) (E := E) (C := C) wf) x G (ix2 a c) = x (ix2 (rowOf hN G a) c) := by
  unfold Host.gather
  congr 1
  funext b
  refine Fin.ext ?_
  match b with
  | ⟨0, _⟩ =>
    -- the collapsed row axis: the clamped start index, no batching coordinate, no offset
    show (dims2 (N := N) (E := E) (C := C) wf).start (ix2 a c) G 0
        + (dims2 (N := N) (E := E) (C := C) wf).batchCoord (ix2 a c) 0
        + (dims2 (N := N) (E := E) (C := C) wf).offCoord (ix2 a c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 (N := N) (E := E) (C := C) wf).startIndexMap from List.mem_singleton.mpr rfl)]
    have hsi : (dims2 (N := N) (E := E) (C := C) wf).siIdx (ix2 a c)
        ⟨List.idxOf (0 : Fin 2) (dims2 (N := N) (E := E) (C := C) wf).startIndexMap,
          List.idxOf_lt_length_iff.2 (List.mem_singleton.mpr rfl)⟩ = ix2 a 0 := by
      funext e; refine Fin.ext ?_
      match e with
      | ⟨0, _⟩ => rfl
      | ⟨1, _⟩ => rfl
    rw [hsi]
    rfl
  | ⟨1, _⟩ =>
    -- the column axis, taken whole: start 0, no batching coordinate, the result's column as offset
    show (dims2 (N := N) (E := E) (C := C) wf).start (ix2 a c) G 1
        + (dims2 (N := N) (E := E) (C := C) wf).batchCoord (ix2 a c) 1
        + (dims2 (N := N) (E := E) (C := C) wf).offCoord (ix2 a c) 1 = c.val
    rw [GatherDims.batchCoord_eq_zero _ _ _ List.not_mem_nil]
    have hst : (dims2 (N := N) (E := E) (C := C) wf).start (ix2 a c) G 1 = 0 := by
      unfold GatherDims.start
      rw [dif_neg (by simp)]
    have hk : (1 : Fin 2) ∈ (dims2 (N := N) (E := E) (C := C) wf).sKept :=
      (GatherDims.mem_sKept _ _).mpr ⟨by simp, List.not_mem_nil⟩
    have hoff : (dims2 (N := N) (E := E) (C := C) wf).offCoord (ix2 a c) 1 = c.val := by
      unfold GatherDims.offCoord
      rw [dif_pos hk]
      rfl
    rw [hst, hoff]
    simp

end Cert.GatherRows

end
-- ==== Proof.RefData.lean ====
/-
  The reference program's edge data as functions of the edge-index argument: the source row and the clamped target row
  each edge reads (its start index read signed and clamped into the node range), and the node scale
  (the inverse square root of the in-degree counted with self-loops, zero where the degree is not positive).
-/
import proofs.«121991_j4475355922529_1_alg».proof.Proof.RefRead
import proofs.«121991_j4475355922529_1_alg».proof.Proof.LibGatherRows

noncomputable section

namespace Cert.ReferenceIdeal.RefValue

open Cert.ReferenceIdeal Cert.ReferenceIdeal.Read Idealize.ShloMosaic Idealize.ShloMosaic.ValueIdx

/-- There is at least one node. -/
theorem nodes_pos : 0 < 100000 := by decide

/-- The source row edge `a` reads: its wrapped source index, clamped into the node range. -/
def gsR (x1 : (⟨S2x1600000, .i32⟩ : BufTy).Contents (Elt Ideal)) : Fin 1700000 → Fin 100000 :=
  Cert.GatherRows.rowOf nodes_pos (val_main_v38 (F := Ideal) x1)

/-- The target row edge `a` reads the node scale at: its wrapped target index, clamped into the node range. -/
def gdR (x1 : (⟨S2x1600000, .i32⟩ : BufTy).Contents (Elt Ideal)) : Fin 1700000 → Fin 100000 :=
  Cert.GatherRows.rowOf nodes_pos (val_main_v29 (F := Ideal) x1)

/-- The node scale, node by node. -/
def disR (x1 : (⟨S2x1600000, .i32⟩ : BufTy).Contents (Elt Ideal)) : Fin 100000 → EReal :=
  fun r => val_main_v16 (F := Ideal) x1 (ix1 r)

end Cert.ReferenceIdeal.RefValue

end
-- ==== Proof.GcnSpec.lean ====
/-
  One graph-convolution layer over the extended reals, in two arrangements, and their equality.

  A layer takes node features H (N rows, D columns), a weight matrix W (D by D), a bias b (D entries), a
  node scale dis (one extended real per node) and E edges. Edge a reads source row gs a; it lands on the node whose
  number is the signed reading of the edge's target index I (a, 0), and on no node when that number names none.
  With XW the matrix product of H and W:

    the edge arrangement   out (n, c) = (0 + sum over the edges a landing on n of  XW (gs a, c) * (dis (gs a) * dis (gd a))) + b c
    the node arrangement   out (n, c) = (0 + sum over the edges a landing on n of  XW (gs a, c) * dis (gs a)) * dis n + b c

  where gd a is the node edge a's target index names after clamping. An edge landing on n has gd a = n, so the two
  differ by moving the common factor dis n out of the sum. On the extended reals that is sound when the factor is a
  non-negative real (a sum may be infinite or of mixed infinities: multiplying by a non-negative finite factor
  commutes with extended addition; by a negative or infinite one it need not). Nothing is assumed of H, W or b.
-/
import Idealize.ShloMosaic.Lib.ValueIdx
import Idealize.ShloMosaic.PureOps.Ideal
import Mathlib.Data.EReal.Operations

noncomputable section

open scoped BigOperators

namespace Cert.Gcn

open Idealize.ShloMosaic Idealize.ShloMosaic.ValueIdx

variable {N E D w : Nat}

/-- Entry (r, c) of the matrix product of H and W. -/
def dense (H : (⟨2, ![N, D]⟩ : Shape).Idx → EReal) (W : (⟨2, ![D, D]⟩ : Shape).Idx → EReal) (r : Fin N) (c : Fin D) : EReal :=
  ∑ k : Fin D, H (ix2 r k) * W (ix2 k c)

/-- The matrix product with every row scaled by that row's entry of a one-column array. -/
def scaledDense (H : (⟨2, ![N, D]⟩ : Shape).Idx → EReal) (W : (⟨2, ![D, D]⟩ : Shape).Idx → EReal)
    (d : (⟨2, ![N, 1]⟩ : Shape).Idx → EReal) : (⟨2, ![N, D]⟩ : Shape).Idx → EReal :=
  fun i => dense H W (i 0) (i 1) * d (ix2 (i 0) 0)

/-- An array with every row scaled by that row's entry of a one-column array, plus a one-row array on every row. -/
def scaleBias (A : (⟨2, ![N, D]⟩ : Shape).Idx → EReal) (d : (⟨2, ![N, 1]⟩ : Shape).Idx → EReal)
    (b : (⟨2, ![1, D]⟩ : Shape).Idx → EReal) : (⟨2, ![N, D]⟩ : Shape).Idx → EReal :=
  fun i => A i * d (ix2 (i 0) 0) + b (ix2 0 (i 1))

/-- The layer in the node arrangement: the factor of the target node outside the sum. -/
def kerLayer (gs : Fin E → Fin N) (I : IVec ⟨2, ![E, 1]⟩ w) (dis : Fin N → EReal)
    (H : (⟨2, ![N, D]⟩ : Shape).Idx → EReal) (W : (⟨2, ![D, D]⟩ : Shape).Idx → EReal)
    (b : (⟨1, ![D]⟩ : Shape).Idx → EReal) : (⟨2, ![N, D]⟩ : Shape).Idx → EReal :=
  fun i => (0 + ∑ a : Fin E, if (I (ix2 a 0)).toInt = ((i 0).val : ℤ) then dense H W (gs a) (i 1) * dis (gs a) else 0) * dis (i 0)
    + b (ix1 (i 1))

/-- The layer in the edge arrangement: each edge's term carries both factors. -/
def refLayer (gs gd : Fin E → Fin N) (I : IVec ⟨2, ![E, 1]⟩ w) (dis : Fin N → EReal)
    (H : (⟨2, ![N, D]⟩ : Shape).Idx → EReal) (W : (⟨2, ![D, D]⟩ : Shape).Idx → EReal)
    (b : (⟨1, ![D]⟩ : Shape).Idx → EReal) : (⟨2, ![N, D]⟩ : Shape).Idx → EReal :=
  fun i => (0 + ∑ a : Fin E, if (I (ix2 a 0)).toInt = ((i 0).val : ℤ) then dense H W (gs a) (i 1) * (dis (gs a) * dis (gd a)) else 0)
    + b (ix1 (i 1))

/-- A finite sum of extended reals times a non-negative real factor is the sum of the products. -/
theorem sum_mul_of_nonneg_ne_top {ι : Type*} (s : Finset ι) (f : ι → EReal) {d : EReal} (h0 : 0 ≤ d) (ht : d ≠ ⊤) :
    (∑ a ∈ s, f a) * d = ∑ a ∈ s, f a * d := by
  classical
  induction s using Finset.induction_on with
  | empty => simp
  | insert a s ha ih =>
    rw [Finset.sum_insert ha, Finset.sum_insert ha, EReal.right_distrib_of_nonneg_of_ne_top h0 ht, ih]

/-- The two arrangements agree when every edge that lands on a node has that node as its clamped target and every
    node's scale is a non-negative real. -/
theorem layer_eq (gs gd : Fin E → Fin N) (I : IVec ⟨2, ![E, 1]⟩ w) (dis : Fin N → EReal)
    (hgd : ∀ (a : Fin E) (r : Fin N), (I (ix2 a 0)).toInt = (r.val : ℤ) → gd a = r)
    (hdis : ∀ r, 0 ≤ dis r ∧ dis r ≠ ⊤)
    (H : (⟨2, ![N, D]⟩ : Shape).Idx → EReal) (W : (⟨2, ![D, D]⟩ : Shape).Idx → EReal)
    (b : (⟨1, ![D]⟩ : Shape).Idx → EReal) :
    kerLayer gs I dis H W b = refLayer gs gd I dis H W b := by
  funext i
  unfold kerLayer refLayer
  congr 1
  rw [zero_add, zero_add, sum_mul_of_nonneg_ne_top _ _ (hdis (i 0)).1 (hdis (i 0)).2]
  refine Finset.sum_congr rfl fun a _ => ?_
  by_cases h : (I (ix2 a 0)).toInt = ((i 0).val : ℤ)
  · rw [if_pos h, if_pos h, hgd a (i 0) h, mul_assoc]
  · rw [if_neg h, if_neg h, zero_mul]

end Cert.Gcn

end
-- ==== Proof.LibScatterAdd.lean ====
/-
  The host's accumulating float scatter, for row scatters, read at an index on the extended reals.

  A ROW SCATTER has scatter indices of shape [N, 1] holding one row number each; that number names the
  operand's axis 0, which is inserted; the update's remaining axes (none, or one axis of C columns) go to the
  operand's remaining axes. Update row j then lands on operand row (I j), the index read signed, column for
  column, and is dropped when that row is outside the operand. On the extended reals the scatter-add is the
  operand plus the exact sum of the updates landing on each element, so

    result (r)    = Z (r)    + the sum over the update rows j with I j = r of U (j)        (no columns)
    result (r, c) = Z (r, c) + the sum over the update rows j with I j = r of U (j, c)     (C columns)

  for any sizes R (operand rows), N (update rows), C (columns) and any index width. The lemmas are stated for
  the dimension numbers as a record built from any proof of their well-formedness (`dims1 wf`, `dims2 wf`); a
  program's own record of the same four lists is that record, so they apply to it by unification.
-/
import Idealize.ShloMosaic.Lib.ValueIdx
import Idealize.ShloMosaic.Lib.IdealHost
import Idealize.ShloMosaic.Lib.Pipeline.Value
import Idealize.ShloMosaic.PureOps.Contract

noncomputable section

open scoped BigOperators

namespace Cert.ScatterRows

open Idealize.ShloMosaic Idealize.ShloMosaic.ValueIdx

theorem coord_val_congr {s : Shape} (j : s.Idx) {a b : Fin s.rank} (h : a = b) : (j a).val = (j b).val := by
  subst h; rfl

section rank1
variable {R N w : Nat}

/-- The 1-D scatter's dimension numbers, over any sizes. -/
abbrev dims1 (wf : ScatterDims.WF ⟨1, ![R]⟩ ⟨2, ![N, 1]⟩ ⟨1, ![N]⟩ [] [0] [0] 1) :
    ScatterDims ⟨1, ![R]⟩ ⟨2, ![N, 1]⟩ ⟨1, ![N]⟩ := ⟨[], [0], [0], 1, wf⟩

theorem start1 (wf) (a : Fin N) (I : IVec ⟨2, ![N, 1]⟩ w) :
    (dims1 (R := R) wf).start (ix1 a) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix1 a) rfl
  | ⟨1, _⟩ =>
    apply Fin.ext
    simp [ScatterDims.siIdx]

theorem window1 (wf) (j : (⟨1, ![N]⟩ : Shape).Idx) :
    (dims1 (R := R) wf).window j 0 = 0 := by
  unfold ScatterDims.window
  rw [dif_neg (by simp [Shape.kept])]

theorem resultIdx1 (wf) (a : Fin N) (I : IVec ⟨2, ![N, 1]⟩ w) (r : Fin R) :
    (dims1 (R := R) wf).resultIdx? (ix1 a) I = some (ix1 r) ↔ (I (ix2 a 0)).toInt = (r.val : ℤ) := by
  unfold ScatterDims.resultIdx?
  constructor
  · intro h
    split at h
    · rename_i hh
      have h0 := congrFun (Option.some.inj h) 0
      have h1 := congrArg Fin.val h0
      have h2 := hh 0
      rw [start1, window1] at h2
      change ((dims1 (R := R) wf).start (ix1 a) I 0 + ((dims1 (R := R) wf).window (ix1 a) 0 : ℤ)).toNat = r.val at h1
      rw [start1, window1] at h1
      omega
    · exact absurd h (by simp)
  · intro h
    have hh : ∀ b, 0 ≤ (dims1 (R := R) wf).start (ix1 a) I b + ((dims1 (R := R) wf).window (ix1 a) b : ℤ)
        ∧ (dims1 (R := R) wf).start (ix1 a) I b + ((dims1 (R := R) wf).window (ix1 a) b : ℤ)
          < ((⟨1, ![R]⟩ : Shape).size b : ℤ) := by
      intro b
      match b with
      | ⟨0, _⟩ =>
        have := r.isLt
        change _ ∧ (dims1 (R := R) wf).start (ix1 a) I 0 + ((dims1 (R := R) wf).window (ix1 a) 0 : ℤ) < (R : ℤ)
        change 0 ≤ (dims1 (R := R) wf).start (ix1 a) I 0 + ((dims1 (R := R) wf).window (ix1 a) 0 : ℤ) ∧ _
        rw [start1, window1, h]
        omega
    rw [dif_pos hh]
    congr 1
    funext b
    match b with
    | ⟨0, _⟩ =>
      apply Fin.ext
      change ((dims1 (R := R) wf).start (ix1 a) I 0 + ((dims1 (R := R) wf).window (ix1 a) 0 : ℤ)).toNat = r.val
      rw [start1, window1, h]
      omega

end rank1

section rank1sum
variable {R N w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem scatterAdd1_apply (wf) (Z : (⟨1, ![R]⟩ : Shape).Idx → EReal) (I : IVec ⟨2, ![N, 1]⟩ w)
    (U : (⟨1, ![N]⟩ : Shape).Idx → EReal) (r : Fin R) :
    Ideal.hostScatterAdd (dims1 (R := R) wf) Z I U (ix1 r)
      = Z (ix1 r) + ∑ a : Fin N, if (I (ix2 a 0)).toInt = (r.val : ℤ) then U (ix1 a) else 0 := by
  unfold Ideal.hostScatterAdd
  rw [Finset.sum_filter, sum_idx1]
  congr 1
  apply Finset.sum_congr rfl
  intro a _
  exact if_congr (resultIdx1 wf a I r) rfl rfl

end rank1sum

section rank2
variable {R N C w : Nat}

/-- The row scatter's dimension numbers, over any sizes: the update's rows go to the operand's rows
    the indices name, its columns to the same columns. -/
abbrev dims2 (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ := ⟨[1], [0], [0], 1, wf⟩

theorem start2_0 (wf) (a : Fin N) (c : Fin C) (I : IVec ⟨2, ![N, 1]⟩ w) :
    (dims2 (R := R) wf).start (ix2 a c) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix2 a c) rfl
  | ⟨1, _⟩ =>
    apply Fin.ext
    simp [ScatterDims.siIdx]

theorem start2_1 (wf) (j : (⟨2, ![N, C]⟩ : Shape).Idx) (I : IVec ⟨2, ![N, 1]⟩ w) :
    (dims2 (R := R) wf).start j I 1 = 0 := by
  unfold ScatterDims.start
  rw [dif_neg (by simp)]

theorem window2_0 (wf) (j : (⟨2, ![N, C]⟩ : Shape).Idx) :
    (dims2 (R := R) wf).window j 0 = 0 := by
  unfold ScatterDims.window
  rw [dif_neg (by simp [Shape.kept])]

theorem window2_1 (wf) (a : Fin N) (c : Fin C) :
    (dims2 (R := R) wf).window (ix2 a c) 1 = c.val := by
  unfold ScatterDims.window
  rw [dif_pos (by simp [Shape.kept])]
  exact coord_val_congr (ix2 a c) rfl

end rank2

section rank2sum
variable {R N C w : Nat}

theorem resultIdx2 (wf) (a : Fin N) (c : Fin C) (I : IVec ⟨2, ![N, 1]⟩ w) (r : Fin R) (c' : Fin C) :
    (dims2 (R := R) wf).resultIdx? (ix2 a c) I = some (ix2 r c')
      ↔ (I (ix2 a 0)).toInt = (r.val : ℤ) ∧ c = c' := by
  unfold ScatterDims.resultIdx?
  constructor
  · intro h
    split at h
    · rename_i hh
      have e := Option.some.inj h
      have h0 := congrArg Fin.val (congrFun e 0)
      have h1 := congrArg Fin.val (congrFun e 1)
      have g0 := hh 0
      rw [start2_0, window2_0] at g0
      change ((dims2 (R := R) wf).start (ix2 a c) I 0 + ((dims2 (R := R) wf).window (ix2 a c) 0 : ℤ)).toNat = r.val at h0
      change ((dims2 (R := R) wf).start (ix2 a c) I 1 + ((dims2 (R := R) wf).window (ix2 a c) 1 : ℤ)).toNat = c'.val at h1
      rw [start2_0, window2_0] at h0
      rw [start2_1, window2_1] at h1
      refine ⟨by omega, Fin.ext (by omega)⟩
    · exact absurd h (by simp)
  · rintro ⟨h, rfl⟩
    have hh : ∀ b, 0 ≤ (dims2 (R := R) wf).start (ix2 a c) I b + ((dims2 (R := R) wf).window (ix2 a c) b : ℤ)
        ∧ (dims2 (R := R) wf).start (ix2 a c) I b + ((dims2 (R := R) wf).window (ix2 a c) b : ℤ)
          < ((⟨2, ![R, C]⟩ : Shape).size b : ℤ) := by
      intro b
      match b with
      | ⟨0, _⟩ =>
        have := r.isLt
        change _ ∧ (dims2 (R := R) wf).start (ix2 a c) I 0 + ((dims2 (R := R) wf).window (ix2 a c) 0 : ℤ) < (R : ℤ)
        change 0 ≤ (dims2 (R := R) wf).start (ix2 a c) I 0 + ((dims2 (R := R) wf).window (ix2 a c) 0 : ℤ) ∧ _
        rw [start2_0, window2_0, h]
        omega
      | ⟨1, _⟩ =>
        have := c.isLt
        change _ ∧ (dims2 (R := R) wf).start (ix2 a c) I 1 + ((dims2 (R := R) wf).window (ix2 a c) 1 : ℤ) < (C : ℤ)
        change 0 ≤ (dims2 (R := R) wf).start (ix2 a c) I 1 + ((dims2 (R := R) wf).window (ix2 a c) 1 : ℤ) ∧ _
        rw [start2_1, window2_1]
        omega
    rw [dif_pos hh]
    congr 1
    funext b
    match b with
    | ⟨0, _⟩ =>
      apply Fin.ext
      change ((dims2 (R := R) wf).start (ix2 a c) I 0 + ((dims2 (R := R) wf).window (ix2 a c) 0 : ℤ)).toNat = r.val
      rw [start2_0, window2_0, h]
      omega
    | ⟨1, _⟩ =>
      apply Fin.ext
      change ((dims2 (R := R) wf).start (ix2 a c) I 1 + ((dims2 (R := R) wf).window (ix2 a c) 1 : ℤ)).toNat = c.val
      rw [start2_1, window2_1]
      omega

/-- Of a row of terms, the ones at one column under a condition that does not depend on the column. -/
theorem sum_and_eq (p : Prop) [Decidable p] (c : Fin C) (f : Fin C → EReal) :
    ∑ c' : Fin C, (if p ∧ c' = c then f c' else 0) = if p then f c else 0 := by
  by_cases hp : p
  · simp [hp]
  · simp [hp]

theorem scatterAdd2_apply (wf) (Z : (⟨2, ![R, C]⟩ : Shape).Idx → EReal) (I : IVec ⟨2, ![N, 1]⟩ w)
    (U : (⟨2, ![N, C]⟩ : Shape).Idx → EReal) (r : Fin R) (c : Fin C) :
    Ideal.hostScatterAdd (dims2 (R := R) wf) Z I U (ix2 r c)
      = Z (ix2 r c) + ∑ a : Fin N, if (I (ix2 a 0)).toInt = (r.val : ℤ) then U (ix2 a c) else 0 := by
  unfold Ideal.hostScatterAdd
  rw [Finset.sum_filter, sum_idx2]
  congr 1
  apply Finset.sum_congr rfl
  intro a _
  rw [← sum_and_eq ((I (ix2 a 0)).toInt = (r.val : ℤ)) c (fun c' => U (ix2 a c'))]
  apply Finset.sum_congr rfl
  intro c' _
  exact if_congr (resultIdx2 wf a c' I r c) rfl rfl

end rank2sum

end Cert.ScatterRows

end
-- ==== Proof.RefClosed.lean ====
/-
  The reference program's result as three applications of one graph-convolution layer.

  Each of the program's three layers is the same chain of operations over different buffers: the matrix product of
  the layer's input and weight, a row gather of the product by the edges' source indices, a multiplication by the
  edge weight broadcast along the columns, a scatter-add of the products into a zero array by the edges' target
  indices, and the addition of the bias broadcast along the rows. Read at an entry (r, c) the chain is

    (0 + the sum over the edges a landing on r of  XW (source row of a, c) * weight a) + b c,

  and the edge weight is the product of the node scales at the edge's clamped source and target rows. That is the
  layer in the edge arrangement, so the program's result is that layer applied three times.
-/
import proofs.«121991_j4475355922529_1_alg».proof.Proof.RefData
import proofs.«121991_j4475355922529_1_alg».proof.Proof.GcnSpec
import proofs.«121991_j4475355922529_1_alg».proof.Proof.LibScatterAdd

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The zero array the scatter accumulates into, at an entry. -/
theorem zero_read (i : S100000x128.Idx) : val_main_v43 (F := Ideal) i = 0 :=
  (val_main_v43_apply (F := Ideal) i).trans Ideal.ofBits_zero_f32

/-- The bias broadcast along the rows, at an entry. -/
theorem bias_read (b : (⟨S128, .f32⟩ : BufTy).Contents (Elt Ideal)) (r : Fin 100000) (c : Fin 128) :
    val_main_v47 (F := Ideal) b (ix2 r c) = b (ix1 c) := by
  rw [val_main_v47_apply, val_main_v46_apply]
  refine congrArg b ?_
  funext d
  match d with
  | ⟨0, _⟩ => rfl

/-- The matrix product, at an entry. -/
theorem dense_read (h : (⟨S100000x128, .f32⟩ : BufTy).Contents (Elt Ideal)) (W : (⟨S128x128, .f32⟩ : BufTy).Contents (Elt Ideal))
    (r : Fin 100000) (c : Fin 128) :
    val_main_v32 (F := Ideal) h W (ix2 r c) = Cert.Gcn.dense h W r c := by
  rw [val_main_v32_apply]
  unfold Cert.Gcn.dense
  refine Finset.sum_congr rfl fun k _ => congrArg₂ (· * ·) (congrArg h ?_) (congrArg W ?_)
  · funext d
    match d with
    | ⟨0, _⟩ => rfl
    | ⟨1, _⟩ => rfl
  · funext d
    match d with
    | ⟨0, _⟩ => rfl
    | ⟨1, _⟩ => rfl

/-- The row scatter-add, at an entry. -/
theorem scatter_read (Z : (⟨S100000x128, .f32⟩ : BufTy).Contents (Elt Ideal)) (I : (⟨S1700000x1, .i32⟩ : BufTy).Contents (Elt Ideal))
    (V : (⟨S1700000x128, .f32⟩ : BufTy).Contents (Elt Ideal)) (r : Fin 100000) (c : Fin 128) :
    Host.scatterAdd (F := Ideal) (φ := .f32) scatter_S100000x128_S1700000x1_S1700000x128_1_0_0_1 Z I V (ix2 r c)
      = Z (ix2 r c) + ∑ a : Fin 1700000, if (I (ix2 a 0)).toInt = (r.val : ℤ) then V (ix2 a c) else 0 :=
  Cert.ScatterRows.scatterAdd2_apply scatter_S100000x128_S1700000x1_S1700000x128_1_0_0_1.wf Z I V r c

/-- The row gather, at an entry. -/
theorem gather_read (x : (⟨S100000x128, .f32⟩ : BufTy).Contents (Elt Ideal)) (G : (⟨S1700000x1, .i32⟩ : BufTy).Contents (Elt Ideal))
    (a : Fin 1700000) (c : Fin 128) :
    Host.gather gather_S100000x128_S1700000x1_S1700000x128_1_0_n_n_0_1_1128 x G (ix2 a c)
      = x (ix2 (Cert.GatherRows.rowOf nodes_pos G a) c) :=
  Cert.GatherRows.gather2_apply nodes_pos gather_S100000x128_S1700000x1_S1700000x128_1_0_n_n_0_1_1128.wf x G a c

/-- The 1-D gather, at an entry. -/
theorem gather1_read (x : (⟨S100000, .f32⟩ : BufTy).Contents (Elt Ideal)) (G : (⟨S1700000x1, .i32⟩ : BufTy).Contents (Elt Ideal))
    (a : Fin 1700000) :
    Host.gather gather_S100000_S1700000x1_S1700000_n_0_n_n_0_1_1 x G (ix1 a)
      = x (ix1 (Cert.GatherRows.rowOf nodes_pos G a)) :=
  Cert.GatherRows.gather1_apply nodes_pos gather_S100000_S1700000x1_S1700000_n_0_n_n_0_1_1.wf x G a

/-- An edge array broadcast along the columns, at an entry. -/
theorem edge_bcast_read (nrm : (⟨S1700000, .f32⟩ : BufTy).Contents (Elt Ideal)) (a : Fin 1700000) (c : Fin 128) :
    broadcastInDim S1700000x128 ![0, 1] bcast_S1700000x1_S1700000x128_0_1
        (broadcastInDim S1700000x1 ![0] bcast_S1700000_S1700000x1_0 nrm) (ix2 a c) = nrm (ix1 a) := by
  refine (broadcastInDim_apply _ bcast_S1700000x1_S1700000x128_0_1 _ (ix2 a c) (ix2 a 0) (fun d => match d with
    | ⟨0, _⟩ => by show a.val = if (1700000 : Nat) = 1 then 0 else a.val; rw [if_neg (by decide)]
    | ⟨1, _⟩ => by show 0 = if (1 : Nat) = 1 then 0 else c.val; rw [if_pos rfl])).trans ?_
  exact broadcastInDim_apply _ bcast_S1700000_S1700000x1_0 nrm (ix2 a 0) (ix1 a) (fun d => match d with
    | ⟨0, _⟩ => by show a.val = if (1700000 : Nat) = 1 then 0 else a.val; rw [if_neg (by decide)])

/-- One layer's chain of operations over an arbitrary input, weight, bias, target indices, source indices and edge weight. -/
def layerTerm (h : (⟨S100000x128, .f32⟩ : BufTy).Contents (Elt Ideal)) (W : (⟨S128x128, .f32⟩ : BufTy).Contents (Elt Ideal))
    (b : (⟨S128, .f32⟩ : BufTy).Contents (Elt Ideal)) (I Gs : (⟨S1700000x1, .i32⟩ : BufTy).Contents (Elt Ideal))
    (nrm : (⟨S1700000, .f32⟩ : BufTy).Contents (Elt Ideal)) : (⟨S100000x128, .f32⟩ : BufTy).Contents (Elt Ideal) :=
  addf (F := Ideal) (φ := .f32)
    (Host.scatterAdd (F := Ideal) (φ := .f32) scatter_S100000x128_S1700000x1_S1700000x128_1_0_0_1 (val_main_v43 (F := Ideal)) I
      (mulf (F := Ideal) (φ := .f32) (Host.gather gather_S100000x128_S1700000x1_S1700000x128_1_0_n_n_0_1_1128 (val_main_v32 (F := Ideal) h W) Gs)
        (broadcastInDim S1700000x128 ![0, 1] bcast_S1700000x1_S1700000x128_0_1
          (broadcastInDim S1700000x1 ![0] bcast_S1700000_S1700000x1_0 nrm))))
    (val_main_v47 (F := Ideal) b)

/-- The layer's chain at an entry: the sum over the edges landing on the row of the gathered product entry times
    the edge weight, from zero, plus the bias entry. -/
theorem layerTerm_apply (h : (⟨S100000x128, .f32⟩ : BufTy).Contents (Elt Ideal)) (W : (⟨S128x128, .f32⟩ : BufTy).Contents (Elt Ideal))
    (b : (⟨S128, .f32⟩ : BufTy).Contents (Elt Ideal)) (I Gs : (⟨S1700000x1, .i32⟩ : BufTy).Contents (Elt Ideal))
    (nrm : (⟨S1700000, .f32⟩ : BufTy).Contents (Elt Ideal)) (r : Fin 100000) (c : Fin 128) :
    layerTerm h W b I Gs nrm (ix2 r c)
      = (0 + ∑ a : Fin 1700000, if (I (ix2 a 0)).toInt = (r.val : ℤ) then
            Cert.Gcn.dense h W (Cert.GatherRows.rowOf nodes_pos Gs a) c * nrm (ix1 a) else 0) + b (ix1 c) := by
  unfold layerTerm
  rw [addf_apply, scatter_read, zero_read, bias_read]
  refine congrArg (· + b (ix1 c)) (congrArg (0 + ·) (Finset.sum_congr rfl fun a _ => if_congr Iff.rfl ?_ rfl))
  rw [mulf_apply, gather_read, dense_read, edge_bcast_read]

/-- The edge weight: the product of the node scales at the edge's clamped source and target rows. -/
theorem norm_read (x1 : (⟨S2x1600000, .i32⟩ : BufTy).Contents (Elt Ideal)) (a : Fin 1700000) :
    val_main_v31 (F := Ideal) x1 (ix1 a) = disR x1 (gsR x1 a) * disR x1 (gdR x1 a) := by
  rw [val_main_v31_apply]
  unfold val_main_v23 val_main_v30
  rw [gather1_read, gather1_read]
  rfl

/-- The layer's chain over the program's edge data is the layer in the edge arrangement. -/
theorem layer_read (x1 : (⟨S2x1600000, .i32⟩ : BufTy).Contents (Elt Ideal))
    (h : (⟨S100000x128, .f32⟩ : BufTy).Contents (Elt Ideal)) (W : (⟨S128x128, .f32⟩ : BufTy).Contents (Elt Ideal))
    (b : (⟨S128, .f32⟩ : BufTy).Contents (Elt Ideal)) :
    layerTerm h W b (val_main_v44 (F := Ideal) x1) (val_main_v38 (F := Ideal) x1) (val_main_v31 (F := Ideal) x1)
      = Cert.Gcn.refLayer (gsR x1) (gdR x1) (val_main_v44 (F := Ideal) x1) (disR x1) h W b := by
  funext i
  obtain ⟨r, c, rfl⟩ : ∃ (r : Fin 100000) (c : Fin 128), i = ix2 r c := ⟨i 0, i 1, eq_ix2 i⟩
  rw [layerTerm_apply]
  unfold Cert.Gcn.refLayer
  refine congrArg₂ (· + ·) (congrArg (0 + ·) (Finset.sum_congr rfl fun a _ => if_congr Iff.rfl ?_ rfl)) rfl
  exact congrArg (Cert.Gcn.dense h W (gsR x1 a) c * ·) (norm_read x1 a)

/-- The first layer's result is the chain over the program's features, first weight and first bias. -/
theorem layer1_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v48 (F := Ideal) x0 x1 x2 x3 = layerTerm x0 x2 x3 (val_main_v44 (F := Ideal) x1) (val_main_v38 (F := Ideal) x1) (val_main_v31 (F := Ideal) x1) := rfl

/-- The second layer's result is the chain over the first layer's result: its gather and scatter indices and its
    edge weight are the first layer's, computed again. -/
theorem layer2_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v65 (F := Ideal) x0 x1 x2 x3 x4 x5
      = layerTerm (val_main_v48 (F := Ideal) x0 x1 x2 x3) x4 x5 (val_main_v44 (F := Ideal) x1) (val_main_v38 (F := Ideal) x1) (val_main_v31 (F := Ideal) x1) := rfl

/-- The third layer's result is the chain over the second layer's result. -/
theorem layer3_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v82 (F := Ideal) x0 x1 x2 x3 x4 x5 x6 x7
      = layerTerm (val_main_v65 (F := Ideal) x0 x1 x2 x3 x4 x5) x6 x7 (val_main_v44 (F := Ideal) x1) (val_main_v38 (F := Ideal) x1) (val_main_v31 (F := Ideal) x1) := rfl

/-- THE REFERENCE'S RESULT: the layer in the edge arrangement applied three times, to the features with the first
    weight and bias, to that with the second, and to that with the third. -/
theorem ref_closed (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    Read.val_main_v82 (F := Ideal) x0 x1 x2 x3 x4 x5 x6 x7
      = Cert.Gcn.refLayer (gsR x1) (gdR x1) (Read.val_main_v44 (F := Ideal) x1) (disR x1)
          (Cert.Gcn.refLayer (gsR x1) (gdR x1) (Read.val_main_v44 (F := Ideal) x1) (disR x1)
            (Cert.Gcn.refLayer (gsR x1) (gdR x1) (Read.val_main_v44 (F := Ideal) x1) (disR x1) x0 x2 x3) x4 x5) x6 x7 := by
  rw [layer3_eq, layer_read, layer2_eq, layer_read, layer1_eq, layer_read]

end Cert.ReferenceIdeal.RefValue

end
-- ==== Proof.KRun.lean ====
/-
  The idealized kernel program's run with its result named: every weakly fair execution of @main terminates, nothing
  faulting, the argument arrays end as launched, and the result array ends at the last boundary's contents of its
  buffer (the fold of the host stretches and the regions' write-backs from the launch memory). The frame's proof
  already reads every unscoped buffer of the final state against that fold; this statement keeps the result's
  equation beside the arguments'.
-/
import proofs.«121991_j4475355922529_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result array's final contents named beside the unchanged arguments. -/
theorem run_named : θ_run defs (onTc (τ := τ) (main (F := F))) ⟨m, fun _ => 0, ρ⟩ (fun r => ∀ c : Dev nD,
      r.2.mem ((c.tc : Thread nD τ).loc main_v56) = Gen.W12 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v56 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunValue

end
-- ==== Proof.KBase.lean ====
/-
  The contents the first region of the kernel program finds: the host stretch before it computes, from the edge-index
  argument alone, the source and target index lists (the edge list's rows followed by the self-loops) and the node
  scale as a one-column array — the same operations the reference applies, so each is the reference's stage of the
  edge-index argument —, and writes no argument array.
-/
import proofs.«121991_j4475355922529_1_alg».proof.Proof.Gen.KernelIdeal.Frame
import proofs.«121991_j4475355922529_1_alg».proof.Proof.RefRead

set_option maxRecDepth 16384

noncomputable section

namespace Cert.KernelIdeal.NetValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The source index list at the first region's entry. -/
theorem base_v3 : W3 m ρ c (Proc.devRef .tc main_v3)
    = Cert.ReferenceIdeal.Read.val_main_v3 (F := Ideal) (m ((c.tc : Thread nD τ).loc main_arg1)) := by
  show StableHlo.after hostOps0_2 (StableHlo.after hostOps0_1 (StableHlo.after hostOps0 (W0 m ρ c))) (Proc.devRef .tc main_v3) = _
  after_results
  rfl

/-- The target index list at the first region's entry. -/
theorem base_v6 : W3 m ρ c (Proc.devRef .tc main_v6)
    = Cert.ReferenceIdeal.Read.val_main_v6 (F := Ideal) (m ((c.tc : Thread nD τ).loc main_arg1)) := by
  show StableHlo.after hostOps0_2 (StableHlo.after hostOps0_1 (StableHlo.after hostOps0 (W0 m ρ c))) (Proc.devRef .tc main_v6) = _
  after_results
  rfl

/-! The node scale, stretch by stretch: the degree count, its comparison and inverse square root (the first stretch),
    the choice between them and zero (the outlined select), the reshape to one column. -/

theorem h0_v12 (V : Valuation τ sig (Elt Ideal)) : StableHlo.after hostOps0 V (Proc.devRef .tc main_v12)
    = Cert.ReferenceIdeal.Read.val_main_v12 (F := Ideal) (V (Proc.devRef .tc main_arg1)) := by
  after_results
  rfl
theorem h0_v15 (V : Valuation τ sig (Elt Ideal)) : StableHlo.after hostOps0 V (Proc.devRef .tc main_v15)
    = Cert.ReferenceIdeal.Read.val_main_v15 (F := Ideal) (V (Proc.devRef .tc main_arg1)) := by
  after_results
  rfl
theorem h0_cst_3 (V : Valuation τ sig (Elt Ideal)) : StableHlo.after hostOps0 V (Proc.devRef .tc main_cst_3)
    = Cert.ReferenceIdeal.Read.val_main_cst_3 (F := Ideal) := by
  after_results
  rfl
theorem h01_v16 (V : Valuation τ sig (Elt Ideal)) : StableHlo.after hostOps0_1 V (Proc.devRef .tc main_v16)
    = select (V (Proc.devRef .tc main_v12)) (V (Proc.devRef .tc main_v15))
        (broadcastInDim S100000 ![] bcast_S_S100000 (id (V (Proc.devRef .tc main_cst_3)))) := by
  after_results
  rfl
theorem h02_v17 (V : Valuation τ sig (Elt Ideal)) : StableHlo.after hostOps0_2 V (Proc.devRef .tc main_v17)
    = shapeCast S100000x1 (V (Proc.devRef .tc main_v16)) shapeCasts_S100000_S100000x1 := by
  after_results
  rfl
theorem scale_stage (x : IVec S2x1600000 32) :
    select (Cert.ReferenceIdeal.Read.val_main_v12 (F := Ideal) x) (Cert.ReferenceIdeal.Read.val_main_v15 (F := Ideal) x)
        (broadcastInDim S100000 ![] bcast_S_S100000 (id (Cert.ReferenceIdeal.Read.val_main_cst_3 (F := Ideal))))
      = Cert.ReferenceIdeal.Read.val_main_v16 (F := Ideal) x := rfl

/-- The node scale as a one-column array at the first region's entry. -/
theorem base_v17 : W3 m ρ c (Proc.devRef .tc main_v17)
    = shapeCast S100000x1 (Cert.ReferenceIdeal.Read.val_main_v16 (F := Ideal) (m ((c.tc : Thread nD τ).loc main_arg1))) shapeCasts_S100000_S100000x1 := by
  refine (h02_v17 (W2 m ρ c)).trans ?_
  refine congrArg (fun z => shapeCast S100000x1 z shapeCasts_S100000_S100000x1) ?_
  refine (h01_v16 (W1 m ρ c)).trans ?_
  rw [show W1 m ρ c (Proc.devRef .tc main_v12) = _ from h0_v12 (W0 m ρ c),
    show W1 m ρ c (Proc.devRef .tc main_v15) = _ from h0_v15 (W0 m ρ c),
    show W1 m ρ c (Proc.devRef .tc main_cst_3) = _ from h0_cst_3 (W0 m ρ c)]
  exact scale_stage _

/-! The argument arrays are as launched: the stretch writes none. -/

theorem base_arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results

theorem base_arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results

theorem base_arg3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results

theorem base_arg4 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results

theorem base_arg5 : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results

theorem base_arg6 : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  after_results

theorem base_arg7 : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  after_results

end Cert.KernelIdeal.NetValue

end
-- ==== Proof.KAgg.lean ====
/-
  The kernel program's layer as a function, and its node arrangement.

  Between its two dense passes the kernel program gathers the rows of the scaled product by a start-index array and
  scatter-adds them into zeros by a target-index array (`aggK`). Read at an index on the extended reals, the result
  at (n, c) is 0 plus the sum, over the edges a whose target index reads as n, of the scaled product at (the clamped
  source row of a, c). Row-scaling that sum and adding the bias is the layer in the node arrangement.
-/
import proofs.«121991_j4475355922529_1_alg».proof.KernelIdeal
import proofs.«121991_j4475355922529_1_alg».proof.Proof.Gen.KernelIdeal
import proofs.«121991_j4475355922529_1_alg».proof.Proof.GcnSpec
import proofs.«121991_j4475355922529_1_alg».proof.Proof.LibScatterAdd
import proofs.«121991_j4475355922529_1_alg».proof.Proof.LibGatherRows
import Idealize.ShloMosaic.Lib.Pipeline.Value
import Idealize.ShloMosaic.PureOps.Ideal.Laws

noncomputable section

open scoped BigOperators

namespace Cert.KernelIdeal.NetValue

open Cert.KernelIdeal Cert.KernelIdeal.Gen Idealize.ShloMosaic Idealize.ShloMosaic.ValueIdx

/-- There is at least one node. -/
theorem nodes_pos : 0 < 100000 := by decide

/-- The aggregation stretch between the two dense passes: gather the rows of `S` by the start indices `Gs`,
    scatter-add them into zeros by the target indices `I`. -/
def aggK (S : FVec Ideal S100000x128 .f32) (Gs I : IVec S1700000x1 32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    I
    (Host.gather gather_S100000x128_S1700000x1_S1700000x128_1_0_n_n_0_1_1128 S Gs)

/-- The row scatter-add, at an entry, over any operands. -/
theorem scatter_at (Z : FVec Ideal S100000x128 .f32) (I : IVec S1700000x1 32) (V : FVec Ideal S1700000x128 .f32)
    (r : Fin 100000) (c : Fin 128) :
    Host.scatterAdd (F := Ideal) (φ := .f32) scatter_S100000x128_S1700000x1_S1700000x128_1_0_0_1 Z I V (ix2 r c)
      = Z (ix2 r c) + ∑ a : Fin 1700000, if (I (ix2 a 0)).toInt = (r.val : ℤ) then V (ix2 a c) else 0 :=
  Cert.ScatterRows.scatterAdd2_apply scatter_S100000x128_S1700000x1_S1700000x128_1_0_0_1.wf Z I V r c

/-- The row gather, at an entry, over any operands. -/
theorem gather_at (x : FVec Ideal S100000x128 .f32) (G : IVec S1700000x1 32) (a : Fin 1700000) (c : Fin 128) :
    Host.gather gather_S100000x128_S1700000x1_S1700000x128_1_0_n_n_0_1_1128 x G (ix2 a c)
      = x (ix2 (Cert.GatherRows.rowOf nodes_pos G a) c) :=
  Cert.GatherRows.gather2_apply nodes_pos gather_S100000x128_S1700000x1_S1700000x128_1_0_n_n_0_1_1128.wf x G a c

/-- The zero array the scatter accumulates into, at an entry. -/
theorem zeros_at (i : S100000x128.Idx) :
    broadcastInDim S100000x128 ![] bcast_S_S100000x128 (constant (F := Ideal) S_ .f32 0x00000000#32) i = 0 :=
  Ideal.ofBits_zero_f32

/-- THE AGGREGATION READ AT (n, c). -/
theorem aggK_apply (S : FVec Ideal S100000x128 .f32) (Gs I : IVec S1700000x1 32) (r : Fin 100000) (c : Fin 128) :
    aggK S Gs I (ix2 r c)
      = 0 + ∑ a : Fin 1700000, if (I (ix2 a 0)).toInt = (r.val : ℤ)
          then S (ix2 (Cert.GatherRows.rowOf nodes_pos Gs a) c) else 0 := by
  unfold aggK
  rw [scatter_at, zeros_at]
  refine congrArg (fun z => (0 : EReal) + z) (Finset.sum_congr rfl fun a _ => ?_)
  rw [gather_at]

end Cert.KernelIdeal.NetValue

end
-- ==== Proof.KLayer.lean ====
/-
  The kernel program's layer, from its passes to the node arrangement.

  The kernel program computes a layer in three stretches: a dense pass that forms the matrix product and scales each
  row by the node scale; the aggregation, which gathers rows by source and adds them up by target; and a second pass
  that scales each row again and adds the bias. Read at (n, c) that is

    (0 + sum over the edges a landing on n of  (XW (gs a, c) * d (gs a))) * d n + b c,

  which is the layer in the node arrangement. The node scale reaches the passes as a one-column array and the bias as
  a one-row array; a vector stored as one column (or one row) reads back the vector, since the row-major position of
  (r, 0) in a column, and of (0, c) in a row, is the position in the vector.
-/
import proofs.«121991_j4475355922529_1_alg».proof.Proof.KAgg
import Idealize.ShloMosaic.Lib.Pipeline.Value
import Idealize.ShloMosaic.Lib.ValueIdx

noncomputable section

open scoped BigOperators

namespace Cert.KernelIdeal.NetValue

open Cert.KernelIdeal Idealize.ShloMosaic Idealize.ShloMosaic.ValueIdx

/-- A vector stored as one column reads, at (r, 0), the vector at r. -/
theorem col_of_vec (x : FVec Ideal S100000 .f32) (h : S100000.ShapeCasts S100000x1) (r : Fin 100000) :
    shapeCast S100000x1 x h (ix2 r 0) = x (ix1 r) := by
  refine shapeCast_apply x h (ix2 r 0) (ix1 r) ?_
  rw [Shape.rowMajor_val_one, Shape.rowMajor_val_two]
  show r.val = r.val * 1 + 0
  omega

/-- A vector stored as one row reads, at (0, c), the vector at c. -/
theorem row_of_vec (b : FVec Ideal S128 .f32) (h : S128.ShapeCasts S1x128) (c : Fin 128) :
    shapeCast S1x128 b h (ix2 0 c) = b (ix1 c) := by
  refine shapeCast_apply b h (ix2 0 c) (ix1 c) ?_
  rw [Shape.rowMajor_val_one, Shape.rowMajor_val_two]
  show c.val = 0 * 128 + c.val
  omega

/-- THE LAYER FROM ITS PASSES: scaling the aggregated scaled product row by row and adding the bias row is the layer in
    the node arrangement, with the clamped start indices as source rows and the one-column scale read as the node
    scale. Proved entry by entry; under the sum, edge by edge, where the scaled product at (gs a, c) is by definition
    the product's entry times the scale of gs a. -/
theorem layer_of_passes (Gs I : IVec S1700000x1 32) (H : FVec Ideal S100000x128 .f32) (W : FVec Ideal S128x128 .f32)
    (d2 : FVec Ideal S100000x1 .f32) (b : FVec Ideal S128 .f32) (b2 : FVec Ideal S1x128 .f32)
    (hb : ∀ c : Fin 128, b2 (ix2 0 c) = b (ix1 c)) :
    Cert.Gcn.scaleBias (aggK (Cert.Gcn.scaledDense H W d2) Gs I) d2 b2
      = Cert.Gcn.kerLayer (Cert.GatherRows.rowOf nodes_pos Gs) I (fun r => d2 (ix2 r 0)) H W b := by
  funext i
  obtain ⟨r, c, rfl⟩ : ∃ (r : Fin 100000) (c : Fin 128), i = ix2 r c := ⟨i 0, i 1, eq_ix2 i⟩
  unfold Cert.Gcn.scaleBias Cert.Gcn.kerLayer
  rw [aggK_apply]
  refine congrArg₂ (· + ·) (congrArg₂ (· * ·) (congrArg₂ (· + ·) rfl (Finset.sum_congr rfl fun a _ => ?_)) rfl) (hb c)
  refine if_congr Iff.rfl ?_ rfl
  rfl

end Cert.KernelIdeal.NetValue

end
-- ==== Proof.KChain.lean ====
/-
  The kernel program's result array, read back through its six regions and the host stretches between them.

  From the contents the first region finds (the reference's own index lists and node scale of the edge-index argument,
  the argument arrays as launched) each layer is: the dense pass (a region: the matrix product, each row scaled by the
  node's scale), the aggregation stretch (gather by the wrapped source index, scatter-add by the raw target index), the
  closing pass (a region: each row scaled again, the bias added). No stretch and no region writes the index lists, the
  node scale or an argument array, so every later stage reads them as the first region found them. What a region leaves
  in its output array, as a function of the arrays it finds, is taken here as a hypothesis (`RegionFinals`).
-/
import proofs.«121991_j4475355922529_1_alg».proof.Proof.Gen.KernelIdeal.Frame
import proofs.«121991_j4475355922529_1_alg».proof.Proof.KBase
import proofs.«121991_j4475355922529_1_alg».proof.Proof.KAgg
import proofs.«121991_j4475355922529_1_alg».proof.Proof.KLayer
import proofs.«121991_j4475355922529_1_alg».proof.Proof.GcnSpec

set_option maxRecDepth 16384

noncomputable section

namespace Cert.KernelIdeal.NetValue

open Cert.KernelIdeal Cert.KernelIdeal.Gen
open Idealize.ShloMosaic Idealize.ShloMosaic.TcCoe Idealize.SL.Sem Idealize.ShloMosaic.StableHlo

/-- What each region leaves in its output array, as a function of the arrays it finds, for any entry contents. -/
structure RegionFinals : Prop where
  f0 : ∀ (V : (c : Dev nD) → (b : Ref sig .tc) → Buf (Elt Ideal) ((c : Thread nD τ).loc b)) (c : Dev nD),
    (dat0 (F := Ideal) V c).arrAt 3 cfg0.N = Cert.Gcn.scaledDense (V c main_arg0) (V c main_arg2) (V c main_v17)
  f1 : ∀ (V : (c : Dev nD) → (b : Ref sig .tc) → Buf (Elt Ideal) ((c : Thread nD τ).loc b)) (c : Dev nD),
    (dat1 (F := Ideal) V c).arrAt 3 cfg1.N = Cert.Gcn.scaleBias (V c main_v28) (V c main_v17) (V c main_v29)
  f2 : ∀ (V : (c : Dev nD) → (b : Ref sig .tc) → Buf (Elt Ideal) ((c : Thread nD τ).loc b)) (c : Dev nD),
    (dat2 (F := Ideal) V c).arrAt 3 cfg2.N = Cert.Gcn.scaledDense (V c main_v30) (V c main_arg4) (V c main_v17)
  f3 : ∀ (V : (c : Dev nD) → (b : Ref sig .tc) → Buf (Elt Ideal) ((c : Thread nD τ).loc b)) (c : Dev nD),
    (dat3 (F := Ideal) V c).arrAt 3 cfg3.N = Cert.Gcn.scaleBias (V c main_v41) (V c main_v17) (V c main_v42)
  f4 : ∀ (V : (c : Dev nD) → (b : Ref sig .tc) → Buf (Elt Ideal) ((c : Thread nD τ).loc b)) (c : Dev nD),
    (dat4 (F := Ideal) V c).arrAt 3 cfg4.N = Cert.Gcn.scaledDense (V c main_v43) (V c main_arg6) (V c main_v17)
  f5 : ∀ (V : (c : Dev nD) → (b : Ref sig .tc) → Buf (Elt Ideal) ((c : Thread nD τ).loc b)) (c : Dev nD),
    (dat5 (F := Ideal) V c).arrAt 3 cfg5.N = Cert.Gcn.scaleBias (V c main_v54) (V c main_v17) (V c main_v55)

/-! ## The three aggregation stretches, from any contents -/

/-- The index arrays an aggregation stretch builds from the source and target index lists. -/
abbrev wrapSrc (src : IVec S1700000 32) : IVec S1700000x1 32 :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)
abbrev colDst (dst : IVec S1700000 32) : IVec S1700000x1 32 :=
  broadcastInDim S1700000x1 ![0] bcast_S1700000_S1700000x1_0 dst

set_option maxHeartbeats 1000000 in
theorem h1_v28 (V : Valuation τ sig (Elt Ideal)) : StableHlo.after hostOps1 V (Proc.devRef .tc main_v28)
    = aggK (V (Proc.devRef .tc main_v18)) (wrapSrc (V (Proc.devRef .tc main_v3))) (colDst (V (Proc.devRef .tc main_v6))) := by
  after_results
  rfl
theorem h1_v29 (V : Valuation τ sig (Elt Ideal)) : StableHlo.after hostOps1 V (Proc.devRef .tc main_v29)
    = shapeCast S1x128 (V (Proc.devRef .tc main_arg3)) shapeCasts_S128_S1x128 := by
  after_results
  rfl
set_option maxHeartbeats 1000000 in
theorem h3_v41 (V : Valuation τ sig (Elt Ideal)) : StableHlo.after hostOps3 V (Proc.devRef .tc main_v41)
    = aggK (V (Proc.devRef .tc main_v31)) (wrapSrc (V (Proc.devRef .tc main_v3))) (colDst (V (Proc.devRef .tc main_v6))) := by
  after_results
  rfl
theorem h3_v42 (V : Valuation τ sig (Elt Ideal)) : StableHlo.after hostOps3 V (Proc.devRef .tc main_v42)
    = shapeCast S1x128 (V (Proc.devRef .tc main_arg5)) shapeCasts_S128_S1x128 := by
  after_results
  rfl
set_option maxHeartbeats 1000000 in
theorem h5_v54 (V : Valuation τ sig (Elt Ideal)) : StableHlo.after hostOps5 V (Proc.devRef .tc main_v54)
    = aggK (V (Proc.devRef .tc main_v44)) (wrapSrc (V (Proc.devRef .tc main_v3))) (colDst (V (Proc.devRef .tc main_v6))) := by
  after_results
  rfl
theorem h5_v55 (V : Valuation τ sig (Elt Ideal)) : StableHlo.after hostOps5 V (Proc.devRef .tc main_v55)
    = shapeCast S1x128 (V (Proc.devRef .tc main_arg7)) shapeCasts_S128_S1x128 := by
  after_results
  rfl

/-! What the stretches keep. -/
theorem h1_keep_v17 (V : Valuation τ sig (Elt Ideal)) : StableHlo.after hostOps1 V (Proc.devRef .tc main_v17) = V (Proc.devRef .tc main_v17) := by
  after_results
theorem h1_keep_v3 (V : Valuation τ sig (Elt Ideal)) : StableHlo.after hostOps1 V (Proc.devRef .tc main_v3) = V (Proc.devRef .tc main_v3) := by
  after_results
theorem h1_keep_v6 (V : Valuation τ sig (Elt Ideal)) : StableHlo.after hostOps1 V (Proc.devRef .tc main_v6) = V (Proc.devRef .tc main_v6) := by
  after_results
theorem h1_keep_arg4 (V : Valuation τ sig (Elt Ideal)) : StableHlo.after hostOps1 V (Proc.devRef .tc main_arg4) = V (Proc.devRef .tc main_arg4) := by
  after_results
theorem h1_keep_arg5 (V : Valuation τ sig (Elt Ideal)) : StableHlo.after hostOps1 V (Proc.devRef .tc main_arg5) = V (Proc.devRef .tc main_arg5) := by
  after_results
theorem h1_keep_arg6 (V : Valuation τ sig (Elt Ideal)) : StableHlo.after hostOps1 V (Proc.devRef .tc main_arg6) = V (Proc.devRef .tc main_arg6) := by
  after_results
theorem h1_keep_arg7 (V : Valuation τ sig (Elt Ideal)) : StableHlo.after hostOps1 V (Proc.devRef .tc main_arg7) = V (Proc.devRef .tc main_arg7) := by
  after_results

theorem h3_keep_v17 (V : Valuation τ sig (Elt Ideal)) : StableHlo.after hostOps3 V (Proc.devRef .tc main_v17) = V (Proc.devRef .tc main_v17) := by
  after_results
theorem h3_keep_v3 (V : Valuation τ sig (Elt Ideal)) : StableHlo.after hostOps3 V (Proc.devRef .tc main_v3) = V (Proc.devRef .tc main_v3) := by
  after_results
theorem h3_keep_v6 (V : Valuation τ sig (Elt Ideal)) : StableHlo.after hostOps3 V (Proc.devRef .tc main_v6) = V (Proc.devRef .tc main_v6) := by
  after_results
theorem h3_keep_arg6 (V : Valuation τ sig (Elt Ideal)) : StableHlo.after hostOps3 V (Proc.devRef .tc main_arg6) = V (Proc.devRef .tc main_arg6) := by
  after_results
theorem h3_keep_arg7 (V : Valuation τ sig (Elt Ideal)) : StableHlo.after hostOps3 V (Proc.devRef .tc main_arg7) = V (Proc.devRef .tc main_arg7) := by
  after_results

theorem h5_keep_v17 (V : Valuation τ sig (Elt Ideal)) : StableHlo.after hostOps5 V (Proc.devRef .tc main_v17) = V (Proc.devRef .tc main_v17) := by
  after_results

/-! ## The quantities every stage is stated over -/

variable (m : (ℓ : Loc nD τ sig) → Buf (Elt Ideal) ℓ) (ρ : Dev nD → PrngReg) (c : Dev nD)

/-- The source index list, the target index list and the node scale (as a one-column array) of the launch memory's
    edge-index argument: the reference's stages of it. -/
def srcK : IVec S1700000 32 := Cert.ReferenceIdeal.Read.val_main_v3 (F := Ideal) (m ((c.tc : Thread nD τ).loc main_arg1))
def dstK : IVec S1700000 32 := Cert.ReferenceIdeal.Read.val_main_v6 (F := Ideal) (m ((c.tc : Thread nD τ).loc main_arg1))
def d2K : FVec Ideal S100000x1 .f32 :=
  shapeCast S100000x1 (Cert.ReferenceIdeal.Read.val_main_v16 (F := Ideal) (m ((c.tc : Thread nD τ).loc main_arg1))) shapeCasts_S100000_S100000x1

/-- One layer of the kernel program over the launch memory's edge data. -/
def layerK (H : FVec Ideal S100000x128 .f32) (W : FVec Ideal S128x128 .f32) (b : FVec Ideal S128 .f32) : FVec Ideal S100000x128 .f32 :=
  Cert.Gcn.kerLayer (Cert.GatherRows.rowOf nodes_pos (wrapSrc (srcK m c))) (colDst (dstK m c)) (fun r => d2K m c (ValueIdx.ix2 r 0)) H W b

def h1K : FVec Ideal S100000x128 .f32 := layerK m c (m ((c.tc : Thread nD τ).loc main_arg0)) (m ((c.tc : Thread nD τ).loc main_arg2)) (m ((c.tc : Thread nD τ).loc main_arg3))
def h2K : FVec Ideal S100000x128 .f32 := layerK m c (h1K m c) (m ((c.tc : Thread nD τ).loc main_arg4)) (m ((c.tc : Thread nD τ).loc main_arg5))
def h3K : FVec Ideal S100000x128 .f32 := layerK m c (h2K m c) (m ((c.tc : Thread nD τ).loc main_arg6)) (m ((c.tc : Thread nD τ).loc main_arg7))

theorem k3_v3 : W3 m ρ c (Proc.devRef .tc main_v3) = srcK m c := base_v3 m ρ c
theorem k3_v6 : W3 m ρ c (Proc.devRef .tc main_v6) = dstK m c := base_v6 m ρ c
theorem k3_v17 : W3 m ρ c (Proc.devRef .tc main_v17) = d2K m c := base_v17 m ρ c
theorem k3_arg0 : W3 m ρ c (Proc.devRef .tc main_arg0) = m ((c.tc : Thread nD τ).loc main_arg0) := base_arg0 m ρ c
theorem k3_arg2 : W3 m ρ c (Proc.devRef .tc main_arg2) = m ((c.tc : Thread nD τ).loc main_arg2) := base_arg2 m ρ c
theorem k3_arg3 : W3 m ρ c (Proc.devRef .tc main_arg3) = m ((c.tc : Thread nD τ).loc main_arg3) := base_arg3 m ρ c
theorem k3_arg4 : W3 m ρ c (Proc.devRef .tc main_arg4) = m ((c.tc : Thread nD τ).loc main_arg4) := base_arg4 m ρ c
theorem k3_arg5 : W3 m ρ c (Proc.devRef .tc main_arg5) = m ((c.tc : Thread nD τ).loc main_arg5) := base_arg5 m ρ c
theorem k3_arg6 : W3 m ρ c (Proc.devRef .tc main_arg6) = m ((c.tc : Thread nD τ).loc main_arg6) := base_arg6 m ρ c
theorem k3_arg7 : W3 m ρ c (Proc.devRef .tc main_arg7) = m ((c.tc : Thread nD τ).loc main_arg7) := base_arg7 m ρ c

/-- A layer's dense pass, aggregation and closing pass compose to the layer. -/
theorem passes_eq (H : FVec Ideal S100000x128 .f32) (W : FVec Ideal S128x128 .f32) (b : FVec Ideal S128 .f32) :
    Cert.Gcn.scaleBias (aggK (Cert.Gcn.scaledDense H W (d2K m c)) (wrapSrc (srcK m c)) (colDst (dstK m c))) (d2K m c)
        (shapeCast S1x128 b shapeCasts_S128_S1x128)
      = layerK m c H W b :=
  layer_of_passes _ _ H W (d2K m c) b _ (fun q => row_of_vec b shapeCasts_S128_S1x128 q)

/-! ## Layer 1: regions 0 and 1 -/

theorem t4 (R : RegionFinals) : W4 m ρ c (Proc.devRef .tc main_v18) = Cert.Gcn.scaledDense (m ((c.tc : Thread nD τ).loc main_arg0)) (m ((c.tc : Thread nD τ).loc main_arg2)) (d2K m c) :=
  (W4_arr m ρ c 3).trans ((R.f0 (V3 m ρ) c).trans (by
    show Cert.Gcn.scaledDense (W3 m ρ c (Proc.devRef .tc main_arg0)) (W3 m ρ c (Proc.devRef .tc main_arg2)) (W3 m ρ c (Proc.devRef .tc main_v17)) = _
    rw [k3_arg0, k3_arg2, k3_v17]))
theorem k4_v17 : W4 m ρ c (Proc.devRef .tc main_v17) = d2K m c :=
  (W4_arr m ρ c 2).trans ((((dat0 (V3 m ρ) c).arrAt_in 2 rfl _).trans (A_eq0 (V3 m ρ) c 2)).trans (k3_v17 m ρ c))

theorem k4_v3 : W4 m ρ c (Proc.devRef .tc main_v3) = srcK m c :=
  (W4_of_ne m ρ c main_v3 (by decide)).trans (k3_v3 m ρ c)
theorem k4_v6 : W4 m ρ c (Proc.devRef .tc main_v6) = dstK m c :=
  (W4_of_ne m ρ c main_v6 (by decide)).trans (k3_v6 m ρ c)
theorem k4_arg3 : W4 m ρ c (Proc.devRef .tc main_arg3) = m ((c.tc : Thread nD τ).loc main_arg3) :=
  (W4_of_ne m ρ c main_arg3 (by decide)).trans (k3_arg3 m ρ c)
theorem k4_arg4 : W4 m ρ c (Proc.devRef .tc main_arg4) = m ((c.tc : Thread nD τ).loc main_arg4) :=
  (W4_of_ne m ρ c main_arg4 (by decide)).trans (k3_arg4 m ρ c)
theorem k4_arg5 : W4 m ρ c (Proc.devRef .tc main_arg5) = m ((c.tc : Thread nD τ).loc main_arg5) :=
  (W4_of_ne m ρ c main_arg5 (by decide)).trans (k3_arg5 m ρ c)
theorem k4_arg6 : W4 m ρ c (Proc.devRef .tc main_arg6) = m ((c.tc : Thread nD τ).loc main_arg6) :=
  (W4_of_ne m ρ c main_arg6 (by decide)).trans (k3_arg6 m ρ c)
theorem k4_arg7 : W4 m ρ c (Proc.devRef .tc main_arg7) = m ((c.tc : Thread nD τ).loc main_arg7) :=
  (W4_of_ne m ρ c main_arg7 (by decide)).trans (k3_arg7 m ρ c)

theorem t5_v28 (R : RegionFinals) : W5 m ρ c (Proc.devRef .tc main_v28)
    = aggK (Cert.Gcn.scaledDense (m ((c.tc : Thread nD τ).loc main_arg0)) (m ((c.tc : Thread nD τ).loc main_arg2)) (d2K m c)) (wrapSrc (srcK m c)) (colDst (dstK m c)) :=
  (h1_v28 (W4 m ρ c)).trans (by rw [t4 m ρ c R, k4_v3, k4_v6])
theorem t5_v29 : W5 m ρ c (Proc.devRef .tc main_v29) = shapeCast S1x128 (m ((c.tc : Thread nD τ).loc main_arg3)) shapeCasts_S128_S1x128 :=
  (h1_v29 (W4 m ρ c)).trans (by rw [k4_arg3])
theorem k5_v17 : W5 m ρ c (Proc.devRef .tc main_v17) = d2K m c :=
  (h1_keep_v17 (W4 m ρ c)).trans (k4_v17 m ρ c)
theorem k5_v3 : W5 m ρ c (Proc.devRef .tc main_v3) = srcK m c :=
  (h1_keep_v3 (W4 m ρ c)).trans (k4_v3 m ρ c)
theorem k5_v6 : W5 m ρ c (Proc.devRef .tc main_v6) = dstK m c :=
  (h1_keep_v6 (W4 m ρ c)).trans (k4_v6 m ρ c)
theorem k5_arg4 : W5 m ρ c (Proc.devRef .tc main_arg4) = m ((c.tc : Thread nD τ).loc main_arg4) :=
  (h1_keep_arg4 (W4 m ρ c)).trans (k4_arg4 m ρ c)
theorem k5_arg5 : W5 m ρ c (Proc.devRef .tc main_arg5) = m ((c.tc : Thread nD τ).loc main_arg5) :=
  (h1_keep_arg5 (W4 m ρ c)).trans (k4_arg5 m ρ c)
theorem k5_arg6 : W5 m ρ c (Proc.devRef .tc main_arg6) = m ((c.tc : Thread nD τ).loc main_arg6) :=
  (h1_keep_arg6 (W4 m ρ c)).trans (k4_arg6 m ρ c)
theorem k5_arg7 : W5 m ρ c (Proc.devRef .tc main_arg7) = m ((c.tc : Thread nD τ).loc main_arg7) :=
  (h1_keep_arg7 (W4 m ρ c)).trans (k4_arg7 m ρ c)

theorem t6 (R : RegionFinals) : W6 m ρ c (Proc.devRef .tc main_v30) = h1K m c :=
  (W6_arr m ρ c 3).trans ((R.f1 (V5 m ρ) c).trans (by
    show Cert.Gcn.scaleBias (W5 m ρ c (Proc.devRef .tc main_v28)) (W5 m ρ c (Proc.devRef .tc main_v17)) (W5 m ρ c (Proc.devRef .tc main_v29)) = _
    rw [t5_v28 m ρ c R, k5_v17, t5_v29]
    exact passes_eq m c _ _ _))
theorem k6_v17 : W6 m ρ c (Proc.devRef .tc main_v17) = d2K m c :=
  (W6_arr m ρ c 1).trans ((((dat1 (V5 m ρ) c).arrAt_in 1 rfl _).trans (A_eq1 (V5 m ρ) c 1)).trans (k5_v17 m ρ c))

theorem k6_v3 : W6 m ρ c (Proc.devRef .tc main_v3) = srcK m c :=
  (W6_of_ne m ρ c main_v3 (by decide)).trans (k5_v3 m ρ c)
theorem k6_v6 : W6 m ρ c (Proc.devRef .tc main_v6) = dstK m c :=
  (W6_of_ne m ρ c main_v6 (by decide)).trans (k5_v6 m ρ c)
theorem k6_arg4 : W6 m ρ c (Proc.devRef .tc main_arg4) = m ((c.tc : Thread nD τ).loc main_arg4) :=
  (W6_of_ne m ρ c main_arg4 (by decide)).trans (k5_arg4 m ρ c)
theorem k6_arg5 : W6 m ρ c (Proc.devRef .tc main_arg5) = m ((c.tc : Thread nD τ).loc main_arg5) :=
  (W6_of_ne m ρ c main_arg5 (by decide)).trans (k5_arg5 m ρ c)
theorem k6_arg6 : W6 m ρ c (Proc.devRef .tc main_arg6) = m ((c.tc : Thread nD τ).loc main_arg6) :=
  (W6_of_ne m ρ c main_arg6 (by decide)).trans (k5_arg6 m ρ c)
theorem k6_arg7 : W6 m ρ c (Proc.devRef .tc main_arg7) = m ((c.tc : Thread nD τ).loc main_arg7) :=
  (W6_of_ne m ρ c main_arg7 (by decide)).trans (k5_arg7 m ρ c)

/-! ## Layer 2: regions 2 and 3 -/

theorem t7 (R : RegionFinals) : W7 m ρ c (Proc.devRef .tc main_v31) = Cert.Gcn.scaledDense (h1K m c) (m ((c.tc : Thread nD τ).loc main_arg4)) (d2K m c) :=
  (W7_arr m ρ c 3).trans ((R.f2 (V6 m ρ) c).trans (by
    show Cert.Gcn.scaledDense (W6 m ρ c (Proc.devRef .tc main_v30)) (W6 m ρ c (Proc.devRef .tc main_arg4)) (W6 m ρ c (Proc.devRef .tc main_v17)) = _
    rw [t6 m ρ c R, k6_arg4, k6_v17]))
theorem k7_v17 : W7 m ρ c (Proc.devRef .tc main_v17) = d2K m c :=
  (W7_arr m ρ c 2).trans ((((dat2 (V6 m ρ) c).arrAt_in 2 rfl _).trans (A_eq2 (V6 m ρ) c 2)).trans (k6_v17 m ρ c))

theorem k7_v3 : W7 m ρ c (Proc.devRef .tc main_v3) = srcK m c :=
  (W7_of_ne m ρ c main_v3 (by decide)).trans (k6_v3 m ρ c)
theorem k7_v6 : W7 m ρ c (Proc.devRef .tc main_v6) = dstK m c :=
  (W7_of_ne m ρ c main_v6 (by decide)).trans (k6_v6 m ρ c)
theorem k7_arg5 : W7 m ρ c (Proc.devRef .tc main_arg5) = m ((c.tc : Thread nD τ).loc main_arg5) :=
  (W7_of_ne m ρ c main_arg5 (by decide)).trans (k6_arg5 m ρ c)
theorem k7_arg6 : W7 m ρ c (Proc.devRef .tc main_arg6) = m ((c.tc : Thread nD τ).loc main_arg6) :=
  (W7_of_ne m ρ c main_arg6 (by decide)).trans (k6_arg6 m ρ c)
theorem k7_arg7 : W7 m ρ c (Proc.devRef .tc main_arg7) = m ((c.tc : Thread nD τ).loc main_arg7) :=
  (W7_of_ne m ρ c main_arg7 (by decide)).trans (k6_arg7 m ρ c)

theorem t8_v41 (R : RegionFinals) : W8 m ρ c (Proc.devRef .tc main_v41)
    = aggK (Cert.Gcn.scaledDense (h1K m c) (m ((c.tc : Thread nD τ).loc main_arg4)) (d2K m c)) (wrapSrc (srcK m c)) (colDst (dstK m c)) :=
  (h3_v41 (W7 m ρ c)).trans (by rw [t7 m ρ c R, k7_v3, k7_v6])
theorem t8_v42 : W8 m ρ c (Proc.devRef .tc main_v42) = shapeCast S1x128 (m ((c.tc : Thread nD τ).loc main_arg5)) shapeCasts_S128_S1x128 :=
  (h3_v42 (W7 m ρ c)).trans (by rw [k7_arg5])
theorem k8_v17 : W8 m ρ c (Proc.devRef .tc main_v17) = d2K m c :=
  (h3_keep_v17 (W7 m ρ c)).trans (k7_v17 m ρ c)
theorem k8_v3 : W8 m ρ c (Proc.devRef .tc main_v3) = srcK m c :=
  (h3_keep_v3 (W7 m ρ c)).trans (k7_v3 m ρ c)
theorem k8_v6 : W8 m ρ c (Proc.devRef .tc main_v6) = dstK m c :=
  (h3_keep_v6 (W7 m ρ c)).trans (k7_v6 m ρ c)
theorem k8_arg6 : W8 m ρ c (Proc.devRef .tc main_arg6) = m ((c.tc : Thread nD τ).loc main_arg6) :=
  (h3_keep_arg6 (W7 m ρ c)).trans (k7_arg6 m ρ c)
theorem k8_arg7 : W8 m ρ c (Proc.devRef .tc main_arg7) = m ((c.tc : Thread nD τ).loc main_arg7) :=
  (h3_keep_arg7 (W7 m ρ c)).trans (k7_arg7 m ρ c)

theorem t9 (R : RegionFinals) : W9 m ρ c (Proc.devRef .tc main_v43) = h2K m c :=
  (W9_arr m ρ c 3).trans ((R.f3 (V8 m ρ) c).trans (by
    show Cert.Gcn.scaleBias (W8 m ρ c (Proc.devRef .tc main_v41)) (W8 m ρ c (Proc.devRef .tc main_v17)) (W8 m ρ c (Proc.devRef .tc main_v42)) = _
    rw [t8_v41 m ρ c R, k8_v17, t8_v42]
    exact passes_eq m c _ _ _))
theorem k9_v17 : W9 m ρ c (Proc.devRef .tc main_v17) = d2K m c :=
  (W9_arr m ρ c 1).trans ((((dat3 (V8 m ρ) c).arrAt_in 1 rfl _).trans (A_eq3 (V8 m ρ) c 1)).trans (k8_v17 m ρ c))

theorem k9_v3 : W9 m ρ c (Proc.devRef .tc main_v3) = srcK m c :=
  (W9_of_ne m ρ c main_v3 (by decide)).trans (k8_v3 m ρ c)
theorem k9_v6 : W9 m ρ c (Proc.devRef .tc main_v6) = dstK m c :=
  (W9_of_ne m ρ c main_v6 (by decide)).trans (k8_v6 m ρ c)
theorem k9_arg6 : W9 m ρ c (Proc.devRef .tc main_arg6) = m ((c.tc : Thread nD τ).loc main_arg6) :=
  (W9_of_ne m ρ c main_arg6 (by decide)).trans (k8_arg6 m ρ c)
theorem k9_arg7 : W9 m ρ c (Proc.devRef .tc main_arg7) = m ((c.tc : Thread nD τ).loc main_arg7) :=
  (W9_of_ne m ρ c main_arg7 (by decide)).trans (k8_arg7 m ρ c)

/-! ## Layer 3: regions 4 and 5 -/

theorem t10 (R : RegionFinals) : W10 m ρ c (Proc.devRef .tc main_v44) = Cert.Gcn.scaledDense (h2K m c) (m ((c.tc : Thread nD τ).loc main_arg6)) (d2K m c) :=
  (W10_arr m ρ c 3).trans ((R.f4 (V9 m ρ) c).trans (by
    show Cert.Gcn.scaledDense (W9 m ρ c (Proc.devRef .tc main_v43)) (W9 m ρ c (Proc.devRef .tc main_arg6)) (W9 m ρ c (Proc.devRef .tc main_v17)) = _
    rw [t9 m ρ c R, k9_arg6, k9_v17]))
theorem k10_v17 : W10 m ρ c (Proc.devRef .tc main_v17) = d2K m c :=
  (W10_arr m ρ c 2).trans ((((dat4 (V9 m ρ) c).arrAt_in 2 rfl _).trans (A_eq4 (V9 m ρ) c 2)).trans (k9_v17 m ρ c))

theorem k10_v3 : W10 m ρ c (Proc.devRef .tc main_v3) = srcK m c :=
  (W10_of_ne m ρ c main_v3 (by decide)).trans (k9_v3 m ρ c)
theorem k10_v6 : W10 m ρ c (Proc.devRef .tc main_v6) = dstK m c :=
  (W10_of_ne m ρ c main_v6 (by decide)).trans (k9_v6 m ρ c)
theorem k10_arg7 : W10 m ρ c (Proc.devRef .tc main_arg7) = m ((c.tc : Thread nD τ).loc main_arg7) :=
  (W10_of_ne m ρ c main_arg7 (by decide)).trans (k9_arg7 m ρ c)

theorem t11_v54 (R : RegionFinals) : W11 m ρ c (Proc.devRef .tc main_v54)
    = aggK (Cert.Gcn.scaledDense (h2K m c) (m ((c.tc : Thread nD τ).loc main_arg6)) (d2K m c)) (wrapSrc (srcK m c)) (colDst (dstK m c)) :=
  (h5_v54 (W10 m ρ c)).trans (by rw [t10 m ρ c R, k10_v3, k10_v6])
theorem t11_v55 : W11 m ρ c (Proc.devRef .tc main_v55) = shapeCast S1x128 (m ((c.tc : Thread nD τ).loc main_arg7)) shapeCasts_S128_S1x128 :=
  (h5_v55 (W10 m ρ c)).trans (by rw [k10_arg7])
theorem k11_v17 : W11 m ρ c (Proc.devRef .tc main_v17) = d2K m c :=
  (h5_keep_v17 (W10 m ρ c)).trans (k10_v17 m ρ c)

/-- THE RESULT ARRAY at the last boundary: three layers of the launch memory's arguments. -/
theorem result_eq (R : RegionFinals) : W12 m ρ c (Proc.devRef .tc main_v56) = h3K m c :=
  (W12_arr m ρ c 3).trans ((R.f5 (V11 m ρ) c).trans (by
    show Cert.Gcn.scaleBias (W11 m ρ c (Proc.devRef .tc main_v54)) (W11 m ρ c (Proc.devRef .tc main_v17)) (W11 m ρ c (Proc.devRef .tc main_v55)) = _
    rw [t11_v54 m ρ c R, k11_v17, t11_v55]
    exact passes_eq m c _ _ _))

end Cert.KernelIdeal.NetValue

end
-- ==== Proof.PaySB.lean ====
/-
  The scale-and-bias kernel body read at one index. Its stored value is

      out (p, q) = agg (p, q) * d (p, 0) + b (0, q)

  where agg is a block of 10000 rows and 128 columns, d a one-column array of the same rows and b a one-row array:
  the shape casts are to the same shape (the identity), the column is broadcast along the columns and the row
  along the rows, and the multiplication and the addition are elementwise. The three regions that run this body
  print the same operations, so the three statements have the same proof.
-/
import proofs.«121991_j4475355922529_1_alg».proof.Proof.Gen.KernelIdeal.Skeleton
import Idealize.ShloMosaic.Lib.ValueIdx
import Idealize.ShloMosaic.Lib.ValueLayout
import Idealize.ShloMosaic.Lib.Pipeline.Value
import proofs.«121991_j4475355922529_1_alg».proof.Proof.GcnSpec

noncomputable section

namespace Cert.KernelIdeal.RegionValue

open Cert.KernelIdeal Idealize.ShloMosaic Idealize.ShloMosaic.ValueIdx

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The scale-and-bias body of region 1 at `(p, q)`: the block's entry times its row's scale plus the bias of its column. -/
theorem pay1_apply (x0 : Vec Ideal S10000x128 .f32) (x1 : Vec Ideal S10000x1 .f32) (x2 : Vec Ideal S1x128 .f32)
    (p : Fin 10000) (q : Fin 128) :
    Gen.k1_pay1 x0 x1 x2 (ix2 p q) = x0 (ix2 p q) * x1 (ix2 p (0 : Fin 1)) + x2 (ix2 (0 : Fin 1) q) := by
  unfold Gen.k1_pay1
  show shapeCast S10000x128 x0 _ (ix2 p q)
        * broadcastTo S10000x128 (shapeCast S10000x1 x1 _) _ (ix2 p q)
      + broadcastTo S10000x128 (shapeCast S1x128 x2 _) _ (ix2 p q) = _
  rw [shapeCast_self, shapeCast_self, shapeCast_self, broadcastTo_a1_ab_apply, broadcastTo_1b_ab_apply]

/-- The scale-and-bias body of region 3 at `(p, q)`: the block's entry times its row's scale plus the bias of its column. -/
theorem pay3_apply (x0 : Vec Ideal S10000x128 .f32) (x1 : Vec Ideal S10000x1 .f32) (x2 : Vec Ideal S1x128 .f32)
    (p : Fin 10000) (q : Fin 128) :
    Gen.k3_pay1 x0 x1 x2 (ix2 p q) = x0 (ix2 p q) * x1 (ix2 p (0 : Fin 1)) + x2 (ix2 (0 : Fin 1) q) := by
  unfold Gen.k3_pay1
  show shapeCast S10000x128 x0 _ (ix2 p q)
        * broadcastTo S10000x128 (shapeCast S10000x1 x1 _) _ (ix2 p q)
      + broadcastTo S10000x128 (shapeCast S1x128 x2 _) _ (ix2 p q) = _
  rw [shapeCast_self, shapeCast_self, shapeCast_self, broadcastTo_a1_ab_apply, broadcastTo_1b_ab_apply]

/-- The scale-and-bias body of region 5 at `(p, q)`: the block's entry times its row's scale plus the bias of its column. -/
theorem pay5_apply (x0 : Vec Ideal S10000x128 .f32) (x1 : Vec Ideal S10000x1 .f32) (x2 : Vec Ideal S1x128 .f32)
    (p : Fin 10000) (q : Fin 128) :
    Gen.k5_pay1 x0 x1 x2 (ix2 p q) = x0 (ix2 p q) * x1 (ix2 p (0 : Fin 1)) + x2 (ix2 (0 : Fin 1) q) := by
  unfold Gen.k5_pay1
  show shapeCast S10000x128 x0 _ (ix2 p q)
        * broadcastTo S10000x128 (shapeCast S10000x1 x1 _) _ (ix2 p q)
      + broadcastTo S10000x128 (shapeCast S1x128 x2 _) _ (ix2 p q) = _
  rw [shapeCast_self, shapeCast_self, shapeCast_self, broadcastTo_a1_ab_apply, broadcastTo_1b_ab_apply]

/-- The scale-and-bias formula assembled from three reads: an entry, its row's scale and its column's bias. -/
theorem scaleBias_of_reads (A : S100000x128.Idx → EReal) (d : S100000x1.Idx → EReal) (b : S1x128.Idx → EReal)
    (i : S100000x128.Idx) (x s y : EReal) (hx : x = A i) (hs : s = d (ix2 (i 0) (0 : Fin 1)))
    (hy : y = b (ix2 (0 : Fin 1) (i 1))) : x * s + y = Cert.Gcn.scaleBias A d b i := by
  subst hx hs hy; rfl

end Cert.KernelIdeal.RegionValue

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.PayMM.lean ====
/-
  The matrix-product-and-scale kernel body read at one index. Its stored value is

      out (p, q) = (∑ k, x (p, k) * w (k, q)) * d (p, 0)

  where x is a block of 10000 rows and 128 columns, w the 128 by 128 weights and d a one-column array of the block's
  rows: the operands are narrowed to a 16-bit format first, which at the extended reals is the identity; the product
  is taken into a zero accumulator with the plain dimension numbers (contract the left operand's columns with the
  right operand's rows), so it is the textbook sum; the column is broadcast along the columns and the multiplication
  is elementwise. The second and third regions that run this body cast the block to its own shape first (the
  identity).
-/
import proofs.«121991_j4475355922529_1_alg».proof.Proof.PaySB
import proofs.«121991_j4475355922529_1_alg».proof.Proof.LibPlainDot

noncomputable section

open scoped BigOperators

namespace Cert.KernelIdeal.RegionValue

open Cert.KernelIdeal Idealize.ShloMosaic Idealize.ShloMosaic.ValueIdx

/-- The printed dimension numbers are the plain ones. -/
theorem dot_eq_plain : dot_S10000x128_S128x128_S10000x128_1_0_0_1_n_n = DotDims.plain 10000 128 128 := rfl

/-- The matrix-product-and-scale body of region 0 at `(p, q)`: row `p` of the block against column `q` of the weights,
    times the row's scale. -/
theorem pay0_apply (x0 : Vec Ideal S10000x128 .f32) (x1 : Vec Ideal S128x128 .f32) (x2 : Vec Ideal S10000x1 .f32)
    (p : Fin 10000) (q : Fin 128) :
    Gen.k0_pay1 x0 x1 x2 (ix2 p q) = (∑ k : Fin 128, x0 (ix2 p k) * x1 (ix2 k q)) * x2 (ix2 p (0 : Fin 1)) := by
  unfold Gen.k0_pay1
  show (matmul (F := Ideal) dot_S10000x128_S128x128_S10000x128_1_0_0_1_n_n none
          (truncf (F := Ideal) .bf16 (x0 : FVec Ideal S10000x128 .f32) Gen.bitsLt_bf16_f32)
          (truncf (F := Ideal) .bf16 (x1 : FVec Ideal S128x128 .f32) Gen.bitsLt_bf16_f32)
          (constant (F := Ideal) S10000x128 .f32 0x00000000#32) (ix2 p q) : EReal)
        * (broadcastTo S10000x128 (shapeCast S10000x1 x2 _) _ (ix2 p q) : EReal) = _
  rw [shapeCast_self, broadcastTo_a1_ab_apply]
  exact congrArg (· * x2 (ix2 p (0 : Fin 1)))
    (Cert.Proof.PlainDot.matmul_plain_zero (M := 10000) (K := 128) (N := 128) none
      (truncf (F := Ideal) .bf16 (x0 : FVec Ideal S10000x128 .f32) Gen.bitsLt_bf16_f32)
      (truncf (F := Ideal) .bf16 (x1 : FVec Ideal S128x128 .f32) Gen.bitsLt_bf16_f32) (ix2 p q))

/-- The matrix-product-and-scale body of region 2 at `(p, q)`: row `p` of the block against column `q` of the weights,
    times the row's scale. -/
theorem pay2_apply (x0 : Vec Ideal S10000x128 .f32) (x1 : Vec Ideal S128x128 .f32) (x2 : Vec Ideal S10000x1 .f32)
    (p : Fin 10000) (q : Fin 128) :
    Gen.k2_pay1 x0 x1 x2 (ix2 p q) = (∑ k : Fin 128, x0 (ix2 p k) * x1 (ix2 k q)) * x2 (ix2 p (0 : Fin 1)) := by
  unfold Gen.k2_pay1
  show (matmul (F := Ideal) dot_S10000x128_S128x128_S10000x128_1_0_0_1_n_n none
          (truncf (F := Ideal) .bf16 (shapeCast S10000x128 (x0 : FVec Ideal S10000x128 .f32) Gen.shapeCasts_S10000x128_S10000x128) Gen.bitsLt_bf16_f32)
          (truncf (F := Ideal) .bf16 (x1 : FVec Ideal S128x128 .f32) Gen.bitsLt_bf16_f32)
          (constant (F := Ideal) S10000x128 .f32 0x00000000#32) (ix2 p q) : EReal)
        * (broadcastTo S10000x128 (shapeCast S10000x1 x2 _) _ (ix2 p q) : EReal) = _
  rw [shapeCast_self, broadcastTo_a1_ab_apply]
  rw [shapeCast_self]
  exact congrArg (· * x2 (ix2 p (0 : Fin 1)))
    (Cert.Proof.PlainDot.matmul_plain_zero (M := 10000) (K := 128) (N := 128) none
      (truncf (F := Ideal) .bf16 (x0 : FVec Ideal S10000x128 .f32) Gen.bitsLt_bf16_f32)
      (truncf (F := Ideal) .bf16 (x1 : FVec Ideal S128x128 .f32) Gen.bitsLt_bf16_f32) (ix2 p q))

/-- The matrix-product-and-scale body of region 4 at `(p, q)`: row `p` of the block against column `q` of the weights,
    times the row's scale. -/
theorem pay4_apply (x0 : Vec Ideal S10000x128 .f32) (x1 : Vec Ideal S128x128 .f32) (x2 : Vec Ideal S10000x1 .f32)
    (p : Fin 10000) (q : Fin 128) :
    Gen.k4_pay1 x0 x1 x2 (ix2 p q) = (∑ k : Fin 128, x0 (ix2 p k) * x1 (ix2 k q)) * x2 (ix2 p (0 : Fin 1)) := by
  unfold Gen.k4_pay1
  show (matmul (F := Ideal) dot_S10000x128_S128x128_S10000x128_1_0_0_1_n_n none
          (truncf (F := Ideal) .bf16 (shapeCast S10000x128 (x0 : FVec Ideal S10000x128 .f32) Gen.shapeCasts_S10000x128_S10000x128) Gen.bitsLt_bf16_f32)
          (truncf (F := Ideal) .bf16 (x1 : FVec Ideal S128x128 .f32) Gen.bitsLt_bf16_f32)
          (constant (F := Ideal) S10000x128 .f32 0x00000000#32) (ix2 p q) : EReal)
        * (broadcastTo S10000x128 (shapeCast S10000x1 x2 _) _ (ix2 p q) : EReal) = _
  rw [shapeCast_self, broadcastTo_a1_ab_apply]
  rw [shapeCast_self]
  exact congrArg (· * x2 (ix2 p (0 : Fin 1)))
    (Cert.Proof.PlainDot.matmul_plain_zero (M := 10000) (K := 128) (N := 128) none
      (truncf (F := Ideal) .bf16 (x0 : FVec Ideal S10000x128 .f32) Gen.bitsLt_bf16_f32)
      (truncf (F := Ideal) .bf16 (x1 : FVec Ideal S128x128 .f32) Gen.bitsLt_bf16_f32) (ix2 p q))

/-- The scaled matrix product assembled from its reads: the terms of row `i 0` of the features against column `i 1`
    of the weights, and the row's scale. -/
theorem scaledDense_of_reads (A : S100000x128.Idx → EReal) (W : S128x128.Idx → EReal) (d : S100000x1.Idx → EReal)
    (i : S100000x128.Idx) (f g : Fin 128 → EReal) (s : EReal)
    (hf : ∀ k, f k = A (ix2 (i 0) k)) (hg : ∀ k, g k = W (ix2 k (i 1))) (hs : s = d (ix2 (i 0) (0 : Fin 1))) :
    (∑ k : Fin 128, f k * g k) * s = Cert.Gcn.scaledDense A W d i := by
  subst hs
  rw [show f = fun k => A (ix2 (i 0) k) from funext hf, show g = fun k => W (ix2 k (i 1)) from funext hg]
  rfl

end Cert.KernelIdeal.RegionValue

end
-- ==== Proof.Region0.lean ====
/-
  Region 0: what the matrix-product-and-scale call leaves in its output array, as one function of the arrays it finds.

  The grid has ten points; point t stages rows 10000 t … 10000 t + 9999 of the features and of the one-column scale,
  and the whole 128 by 128 weights, and writes back the same rows of the output. What it writes is, entry by entry,
  (∑ k, x (r, k) * w (k, q)) * scale (r, 0); the ten blocks tile the 100000 rows, so the array ends as that function
  everywhere.
-/
import proofs.«121991_j4475355922529_1_alg».proof.Proof.Gen.KernelIdeal.Frame
import proofs.«121991_j4475355922529_1_alg».proof.Proof.GcnSpec
import proofs.«121991_j4475355922529_1_alg».proof.Proof.PayMM

noncomputable section

open scoped BigOperators

namespace Cert.KernelIdeal.RegionValue

open Cert.KernelIdeal Idealize.ShloMosaic Idealize.ShloMosaic.ValueIdx Idealize.ShloMosaic.TcCoe Idealize.SL.Sem
open Idealize.ShloMosaic.Pipeline (Dat)

theorem hz0 : (![0, 0] : Fin 2 → Nat) = fun _ => 0 := funext fun a => by fin_cases a <;> rfl

/-- The printed index maps, decided over the ten grid points: the block of rows and the scale column move with the
    output's block of rows, and every other block index is zero. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 :=
  (by decide +kernel : ∀ t : Fin grid0.N, _)

/-- Every one of the ten row blocks is some point's. -/
theorem idx_onto0 : ∀ (q0 : Fin 10), ∃ t : Fin cfg0.N, win0_3.index t = ![q0.val, 0] :=
  (by decide +kernel : ∀ (q0 : Fin 10), ∃ t : Fin grid0.N, win0_3.index t = ![q0.val, 0])

/-- What point `t` writes back is its block of the whole-array function. -/
theorem flushed0_eq (V : (c : Dev nD) → (b : Ref sig .tc) → Buf (Elt Ideal) ((c : Thread nD τ).loc b)) (c : Dev nD) (t : Fin cfg0.N) :
    (Gen.dat0 (F := Ideal) V c).flushed 3 t
      = ((cfg0.win 3).blk t).view.read (Elt Ideal) (Cert.Gcn.scaledDense (V c main_arg0) (V c main_arg2) (V c main_v17)) := by
  show (cfg0.win 3).cut (grid0.coords t) ((Gen.dat0 (F := Ideal) V c).after 3 t) = _
  rw [Gen.after0_3]
  unfold Gen.out0_3
  rw [View.canon_unit_zero hz0]
  simp only [View.ld_unit_zero (S := S10000x128) hz0, View.ld_unit_zero (S := S128x128) hz0, View.ld_unit_zero (S := S10000x1) hz0]
  funext j
  obtain ⟨p, q, rfl⟩ : ∃ (p : Fin 10000) (q : Fin 128), j = ix2 p q := ⟨j 0, j 1, eq_ix2 j⟩
  show Gen.k0_pay1 (Gen.iblk0 V c 0 t) (Gen.iblk0 V c 1 t) (Gen.iblk0 V c 2 t) (ix2 p q)
      = Cert.Gcn.scaledDense (V c main_arg0) (V c main_arg2) (V c main_v17) (((cfg0.win 3).blk t).view.emb (ix2 p q))
  refine (pay0_apply (Gen.iblk0 V c 0 t) (Gen.iblk0 V c 1 t) (Gen.iblk0 V c 2 t) p q).trans ?_
  obtain ⟨e0, e1, e2, e3, e4, e5, e6⟩ := idx_facts0 t
  -- where each input block's element sits in its array: block index times block size plus the coordinate inside
  have h0 : ∀ k : Fin 128, ((cfg0.win 0).blk t).view.emb (ix2 p k)
      = (ix2 ((((cfg0.win 3).blk t).view.emb (ix2 p q)) 0) k : S100000x128.Idx) := fun k => by
    funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  have h1 : ∀ k : Fin 128, ((cfg0.win 1).blk t).view.emb (ix2 k q)
      = (ix2 k ((((cfg0.win 3).blk t).view.emb (ix2 p q)) 1) : S128x128.Idx) := fun k => by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : ((cfg0.win 2).blk t).view.emb (ix2 p (0 : Fin 1))
      = (ix2 ((((cfg0.win 3).blk t).view.emb (ix2 p q)) 0) (0 : Fin 1) : S100000x1.Idx) := by
    funext a; apply Fin.ext
    match a with
    | ⟨0, _⟩ => show win0_2.index t (0 : Fin 2) * 10000 + 1 * p.val = win0_3.index t (0 : Fin 2) * 10000 + 1 * p.val; omega
    | ⟨1, _⟩ => show win0_2.index t (1 : Fin 2) * 1 + 1 * 0 = 0; omega
  exact scaledDense_of_reads (V c main_arg0) (V c main_arg2) (V c main_v17) (((cfg0.win 3).blk t).view.emb (ix2 p q))
    (fun k => Gen.iblk0 V c 0 t (ix2 p k)) (fun k => Gen.iblk0 V c 1 t (ix2 k q)) (Gen.iblk0 V c 2 t (ix2 p (0 : Fin 1)))
    (fun k => congrArg (V c main_arg0 : S100000x128.Idx → EReal) (h0 k)) (fun k => congrArg (V c main_arg2 : S128x128.Idx → EReal) (h1 k))
    (congrArg (V c main_v17 : S100000x1.Idx → EReal) h2)

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v18).slice (win0_3.rect t)).set ↔ _
  rw [View.set_slice_whole, Rect.mem_set_unit]
  exact Iff.rfl

/-- The ten blocks of 10000 rows cover the array: row `r` is in block `r / 10000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 10000, by omega⟩
  have q0 : win0_3.index t (0 : Fin 2) = (i 0).val / 10000 := congrFun ht 0
  have q1 : win0_3.index t (1 : Fin 2) = 0 := congrFun ht 1
  refine ⟨t, Gen.flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The array region 0 leaves: the features times the weights, every row scaled by the row's scale. -/
theorem final0 (V : (c : Dev nD) → (b : Ref sig .tc) → Buf (Elt Ideal) ((c : Thread nD τ).loc b)) (c : Dev nD) :
    (Gen.dat0 (F := Ideal) V c).arrAt 3 cfg0.N = Cert.Gcn.scaledDense (V c main_arg0) (V c main_arg2) (V c main_v17) :=
  (Gen.dat0 (F := Ideal) V c).arrAt_eq_of_cover 3 (Cert.Gcn.scaledDense (V c main_arg0) (V c main_arg2) (V c main_v17))
    (fun t _ => flushed0_eq V c t) cover0

end Cert.KernelIdeal.RegionValue

end
-- ==== Proof.Region1.lean ====
/-
  Region 1: what the scale-and-bias call leaves in its output array, as one function of the arrays it finds.

  The grid has ten points; point t stages rows 10000 t … 10000 t + 9999 of the aggregate and of the one-column scale,
  and the whole one-row bias, and writes back the same rows of the output. What it writes is, entry by entry,
  agg (r, q) * scale (r, 0) + bias (0, q); the ten blocks tile the 100000 rows, so the array ends as that function
  everywhere.
-/
import proofs.«121991_j4475355922529_1_alg».proof.Proof.Gen.KernelIdeal.Frame
import proofs.«121991_j4475355922529_1_alg».proof.Proof.GcnSpec
import proofs.«121991_j4475355922529_1_alg».proof.Proof.PaySB

noncomputable section

namespace Cert.KernelIdeal.RegionValue

open Cert.KernelIdeal Idealize.ShloMosaic Idealize.ShloMosaic.ValueIdx Idealize.ShloMosaic.TcCoe Idealize.SL.Sem
open Idealize.ShloMosaic.Pipeline (Dat)

theorem hz1 : (![0, 0] : Fin 2 → Nat) = fun _ => 0 := funext fun a => by fin_cases a <;> rfl

/-- The printed index maps, decided over the ten grid points: the block of rows and the scale column move with the
    output's block of rows, and every other block index is zero. -/
theorem idx_facts1 : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every one of the ten row blocks is some point's. -/
theorem idx_onto1 : ∀ (q0 : Fin 10), ∃ t : Fin cfg1.N, win1_3.index t = ![q0.val, 0] :=
  (by decide +kernel : ∀ (q0 : Fin 10), ∃ t : Fin grid1.N, win1_3.index t = ![q0.val, 0])

/-- What point `t` writes back is its block of the whole-array function. -/
theorem flushed1_eq (V : (c : Dev nD) → (b : Ref sig .tc) → Buf (Elt Ideal) ((c : Thread nD τ).loc b)) (c : Dev nD) (t : Fin cfg1.N) :
    (Gen.dat1 (F := Ideal) V c).flushed 3 t
      = ((cfg1.win 3).blk t).view.read (Elt Ideal) (Cert.Gcn.scaleBias (V c main_v28) (V c main_v17) (V c main_v29)) := by
  show (cfg1.win 3).cut (grid1.coords t) ((Gen.dat1 (F := Ideal) V c).after 3 t) = _
  rw [Gen.after1_3]
  unfold Gen.out1_3
  rw [View.canon_unit_zero hz1]
  simp only [View.ld_unit_zero (S := S10000x128) hz1, View.ld_unit_zero (S := S10000x1) hz1, View.ld_unit_zero (S := S1x128) hz1]
  funext j
  obtain ⟨p, q, rfl⟩ : ∃ (p : Fin 10000) (q : Fin 128), j = ix2 p q := ⟨j 0, j 1, eq_ix2 j⟩
  show Gen.k1_pay1 (Gen.iblk1 V c 0 t) (Gen.iblk1 V c 1 t) (Gen.iblk1 V c 2 t) (ix2 p q)
      = Cert.Gcn.scaleBias (V c main_v28) (V c main_v17) (V c main_v29) (((cfg1.win 3).blk t).view.emb (ix2 p q))
  refine (pay1_apply (Gen.iblk1 V c 0 t) (Gen.iblk1 V c 1 t) (Gen.iblk1 V c 2 t) p q).trans ?_
  obtain ⟨e0, e1, e2, e3, e4, e5, e6⟩ := idx_facts1 t
  -- where each input block's element sits in its array: block index times block size plus the coordinate inside
  have h0 : ((cfg1.win 0).blk t).view.emb (ix2 p q) = ((cfg1.win 3).blk t).view.emb (ix2 p q) := by
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 128 + 1 * q.val = win1_3.index t (1 : Fin 2) * 128 + 1 * q.val; omega
  have h1 : ((cfg1.win 1).blk t).view.emb (ix2 p (0 : Fin 1))
      = (ix2 ((((cfg1.win 3).blk t).view.emb (ix2 p q)) 0) (0 : Fin 1) : S100000x1.Idx) := by
    funext a; apply Fin.ext
    match a with
    | ⟨0, _⟩ => show win1_1.index t (0 : Fin 2) * 10000 + 1 * p.val = win1_3.index t (0 : Fin 2) * 10000 + 1 * p.val; omega
    | ⟨1, _⟩ => show win1_1.index t (1 : Fin 2) * 1 + 1 * 0 = 0; omega
  have h2 : ((cfg1.win 2).blk t).view.emb (ix2 (0 : Fin 1) q)
      = (ix2 (0 : Fin 1) ((((cfg1.win 3).blk t).view.emb (ix2 p q)) 1) : S1x128.Idx) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  exact scaleBias_of_reads (V c main_v28) (V c main_v17) (V c main_v29) (((cfg1.win 3).blk t).view.emb (ix2 p q))
    (Gen.iblk1 V c 0 t (ix2 p q)) (Gen.iblk1 V c 1 t (ix2 p (0 : Fin 1))) (Gen.iblk1 V c 2 t (ix2 (0 : Fin 1) q))
    (congrArg (V c main_v28 : S100000x128.Idx → EReal) h0) (congrArg (V c main_v17 : S100000x1.Idx → EReal) h1)
    (congrArg (V c main_v29 : S1x128.Idx → EReal) h2)

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v30).slice (win1_3.rect t)).set ↔ _
  rw [View.set_slice_whole, Rect.mem_set_unit]
  exact Iff.rfl

/-- The ten blocks of 10000 rows cover the array: row `r` is in block `r / 10000`. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto1 ⟨(i 0).val / 10000, by omega⟩
  have q0 : win1_3.index t (0 : Fin 2) = (i 0).val / 10000 := congrFun ht 0
  have q1 : win1_3.index t (1 : Fin 2) = 0 := congrFun ht 1
  refine ⟨t, Gen.flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The array region 1 leaves: every row of the aggregate scaled by the row's scale, plus the bias row. -/
theorem final1 (V : (c : Dev nD) → (b : Ref sig .tc) → Buf (Elt Ideal) ((c : Thread nD τ).loc b)) (c : Dev nD) :
    (Gen.dat1 (F := Ideal) V c).arrAt 3 cfg1.N = Cert.Gcn.scaleBias (V c main_v28) (V c main_v17) (V c main_v29) :=
  (Gen.dat1 (F := Ideal) V c).arrAt_eq_of_cover 3 (Cert.Gcn.scaleBias (V c main_v28) (V c main_v17) (V c main_v29))
    (fun t _ => flushed1_eq V c t) cover1

end Cert.KernelIdeal.RegionValue

end
-- ==== Proof.Region2.lean ====
/-
  Region 2: what the matrix-product-and-scale call leaves in its output array, as one function of the arrays it finds.

  The grid has ten points; point t stages rows 10000 t … 10000 t + 9999 of the features and of the one-column scale,
  and the whole 128 by 128 weights, and writes back the same rows of the output. What it writes is, entry by entry,
  (∑ k, x (r, k) * w (k, q)) * scale (r, 0); the ten blocks tile the 100000 rows, so the array ends as that function
  everywhere.
-/
import proofs.«121991_j4475355922529_1_alg».proof.Proof.Gen.KernelIdeal.Frame
import proofs.«121991_j4475355922529_1_alg».proof.Proof.GcnSpec
import proofs.«121991_j4475355922529_1_alg».proof.Proof.PayMM

noncomputable section

open scoped BigOperators

namespace Cert.KernelIdeal.RegionValue

open Cert.KernelIdeal Idealize.ShloMosaic Idealize.ShloMosaic.ValueIdx Idealize.ShloMosaic.TcCoe Idealize.SL.Sem
open Idealize.ShloMosaic.Pipeline (Dat)

theorem hz2 : (![0, 0] : Fin 2 → Nat) = fun _ => 0 := funext fun a => by fin_cases a <;> rfl

/-- The printed index maps, decided over the ten grid points: the block of rows and the scale column move with the
    output's block of rows, and every other block index is zero. -/
theorem idx_facts2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (1 : Fin 2) = 0 :=
  (by decide +kernel : ∀ t : Fin grid2.N, _)

/-- Every one of the ten row blocks is some point's. -/
theorem idx_onto2 : ∀ (q0 : Fin 10), ∃ t : Fin cfg2.N, win2_3.index t = ![q0.val, 0] :=
  (by decide +kernel : ∀ (q0 : Fin 10), ∃ t : Fin grid2.N, win2_3.index t = ![q0.val, 0])

/-- What point `t` writes back is its block of the whole-array function. -/
theorem flushed2_eq (V : (c : Dev nD) → (b : Ref sig .tc) → Buf (Elt Ideal) ((c : Thread nD τ).loc b)) (c : Dev nD) (t : Fin cfg2.N) :
    (Gen.dat2 (F := Ideal) V c).flushed 3 t
      = ((cfg2.win 3).blk t).view.read (Elt Ideal) (Cert.Gcn.scaledDense (V c main_v30) (V c main_arg4) (V c main_v17)) := by
  show (cfg2.win 3).cut (grid2.coords t) ((Gen.dat2 (F := Ideal) V c).after 3 t) = _
  rw [Gen.after2_3]
  unfold Gen.out2_3
  rw [View.canon_unit_zero hz2]
  simp only [View.ld_unit_zero (S := S10000x128) hz2, View.ld_unit_zero (S := S128x128) hz2, View.ld_unit_zero (S := S10000x1) hz2]
  funext j
  obtain ⟨p, q, rfl⟩ : ∃ (p : Fin 10000) (q : Fin 128), j = ix2 p q := ⟨j 0, j 1, eq_ix2 j⟩
  show Gen.k2_pay1 (Gen.iblk2 V c 0 t) (Gen.iblk2 V c 1 t) (Gen.iblk2 V c 2 t) (ix2 p q)
      = Cert.Gcn.scaledDense (V c main_v30) (V c main_arg4) (V c main_v17) (((cfg2.win 3).blk t).view.emb (ix2 p q))
  refine (pay2_apply (Gen.iblk2 V c 0 t) (Gen.iblk2 V c 1 t) (Gen.iblk2 V c 2 t) p q).trans ?_
  obtain ⟨e0, e1, e2, e3, e4, e5, e6⟩ := idx_facts2 t
  -- where each input block's element sits in its array: block index times block size plus the coordinate inside
  have h0 : ∀ k : Fin 128, ((cfg2.win 0).blk t).view.emb (ix2 p k)
      = (ix2 ((((cfg2.win 3).blk t).view.emb (ix2 p q)) 0) k : S100000x128.Idx) := fun k => by
    funext a; apply Fin.ext
    match a with
    | ⟨0, _⟩ => show win2_0.index t (0 : Fin 2) * 10000 + 1 * p.val = win2_3.index t (0 : Fin 2) * 10000 + 1 * p.val; omega
    | ⟨1, _⟩ => show win2_0.index t (1 : Fin 2) * 128 + 1 * k.val = k.val; omega
  have h1 : ∀ k : Fin 128, ((cfg2.win 1).blk t).view.emb (ix2 k q)
      = (ix2 k ((((cfg2.win 3).blk t).view.emb (ix2 p q)) 1) : S128x128.Idx) := fun k => by
    funext a; apply Fin.ext
    match a with
    | ⟨0, _⟩ => show win2_1.index t (0 : Fin 2) * 128 + 1 * k.val = k.val; omega
    | ⟨1, _⟩ => show win2_1.index t (1 : Fin 2) * 128 + 1 * q.val = win2_3.index t (1 : Fin 2) * 128 + 1 * q.val; omega
  have h2 : ((cfg2.win 2).blk t).view.emb (ix2 p (0 : Fin 1))
      = (ix2 ((((cfg2.win 3).blk t).view.emb (ix2 p q)) 0) (0 : Fin 1) : S100000x1.Idx) := by
    funext a; apply Fin.ext
    match a with
    | ⟨0, _⟩ => show win2_2.index t (0 : Fin 2) * 10000 + 1 * p.val = win2_3.index t (0 : Fin 2) * 10000 + 1 * p.val; omega
    | ⟨1, _⟩ => show win2_2.index t (1 : Fin 2) * 1 + 1 * 0 = 0; omega
  exact scaledDense_of_reads (V c main_v30) (V c main_arg4) (V c main_v17) (((cfg2.win 3).blk t).view.emb (ix2 p q))
    (fun k => Gen.iblk2 V c 0 t (ix2 p k)) (fun k => Gen.iblk2 V c 1 t (ix2 k q)) (Gen.iblk2 V c 2 t (ix2 p (0 : Fin 1)))
    (fun k => congrArg (V c main_v30 : S100000x128.Idx → EReal) (h0 k)) (fun k => congrArg (V c main_arg4 : S128x128.Idx → EReal) (h1 k))
    (congrArg (V c main_v17 : S100000x1.Idx → EReal) h2)

/-- An index of the array is in point `t`'s block iff each coordinate is in the block's range on its axis. -/
theorem mem_blk2 (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v31).slice (win2_3.rect t)).set ↔ _
  rw [View.set_slice_whole, Rect.mem_set_unit]
  exact Iff.rfl

/-- The ten blocks of 10000 rows cover the array: row `r` is in block `r / 10000`. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto2 ⟨(i 0).val / 10000, by omega⟩
  have q0 : win2_3.index t (0 : Fin 2) = (i 0).val / 10000 := congrFun ht 0
  have q1 : win2_3.index t (1 : Fin 2) = 0 := congrFun ht 1
  refine ⟨t, Gen.flush2_3 t, ?_⟩
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- The array region 2 leaves: the features times the weights, every row scaled by the row's scale. -/
theorem final2 (V : (c : Dev nD) → (b : Ref sig .tc) → Buf (Elt Ideal) ((c : Thread nD τ).loc b)) (c : Dev nD) :
    (Gen.dat2 (F := Ideal) V c).arrAt 3 cfg2.N = Cert.Gcn.scaledDense (V c main_v30) (V c main_arg4) (V c main_v17) :=
  (Gen.dat2 (F := Ideal) V c).arrAt_eq_of_cover 3 (Cert.Gcn.scaledDense (V c main_v30) (V c main_arg4) (V c main_v17))
    (fun t _ => flushed2_eq V c t) cover2

end Cert.KernelIdeal.RegionValue

end
-- ==== Proof.Region3.lean ====
/-
  Region 3: what the scale-and-bias call leaves in its output array, as one function of the arrays it finds.

  The grid has ten points; point t stages rows 10000 t … 10000 t + 9999 of the aggregate and of the one-column scale,
  and the whole one-row bias, and writes back the same rows of the output. What it writes is, entry by entry,
  agg (r, q) * scale (r, 0) + bias (0, q); the ten blocks tile the 100000 rows, so the array ends as that function
  everywhere.
-/
import proofs.«121991_j4475355922529_1_alg».proof.Proof.Gen.KernelIdeal.Frame
import proofs.«121991_j4475355922529_1_alg».proof.Proof.GcnSpec
import proofs.«121991_j4475355922529_1_alg».proof.Proof.PaySB

noncomputable section

namespace Cert.KernelIdeal.RegionValue

open Cert.KernelIdeal Idealize.ShloMosaic Idealize.ShloMosaic.ValueIdx Idealize.ShloMosaic.TcCoe Idealize.SL.Sem
open Idealize.ShloMosaic.Pipeline (Dat)

theorem hz3 : (![0, 0] : Fin 2 → Nat) = fun _ => 0 := funext fun a => by fin_cases a <;> rfl

/-- The printed index maps, decided over the ten grid points: the block of rows and the scale column move with the
    output's block of rows, and every other block index is zero. -/
theorem idx_facts3 : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (1 : Fin 2) = 0 :=
  (by decide +kernel : ∀ t : Fin grid3.N, _)

/-- Every one of the ten row blocks is some point's. -/
theorem idx_onto3 : ∀ (q0 : Fin 10), ∃ t : Fin cfg3.N, win3_3.index t = ![q0.val, 0] :=
  (by decide +kernel : ∀ (q0 : Fin 10), ∃ t : Fin grid3.N, win3_3.index t = ![q0.val, 0])

/-- What point `t` writes back is its block of the whole-array function. -/
theorem flushed3_eq (V : (c : Dev nD) → (b : Ref sig .tc) → Buf (Elt Ideal) ((c : Thread nD τ).loc b)) (c : Dev nD) (t : Fin cfg3.N) :
    (Gen.dat3 (F := Ideal) V c).flushed 3 t
      = ((cfg3.win 3).blk t).view.read (Elt Ideal) (Cert.Gcn.scaleBias (V c main_v41) (V c main_v17) (V c main_v42)) := by
  show (cfg3.win 3).cut (grid3.coords t) ((Gen.dat3 (F := Ideal) V c).after 3 t) = _
  rw [Gen.after3_3]
  unfold Gen.out3_3
  rw [View.canon_unit_zero hz3]
  simp only [View.ld_unit_zero (S := S10000x128) hz3, View.ld_unit_zero (S := S10000x1) hz3, View.ld_unit_zero (S := S1x128) hz3]
  funext j
  obtain ⟨p, q, rfl⟩ : ∃ (p : Fin 10000) (q : Fin 128), j = ix2 p q := ⟨j 0, j 1, eq_ix2 j⟩
  show Gen.k3_pay1 (Gen.iblk3 V c 0 t) (Gen.iblk3 V c 1 t) (Gen.iblk3 V c 2 t) (ix2 p q)
      = Cert.Gcn.scaleBias (V c main_v41) (V c main_v17) (V c main_v42) (((cfg3.win 3).blk t).view.emb (ix2 p q))
  refine (pay3_apply (Gen.iblk3 V c 0 t) (Gen.iblk3 V c 1 t) (Gen.iblk3 V c 2 t) p q).trans ?_
  obtain ⟨e0, e1, e2, e3, e4, e5, e6⟩ := idx_facts3 t
  -- where each input block's element sits in its array: block index times block size plus the coordinate inside
  have h0 : ((cfg3.win 0).blk t).view.emb (ix2 p q) = ((cfg3.win 3).blk t).view.emb (ix2 p q) := by
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 128 + 1 * q.val = win3_3.index t (1 : Fin 2) * 128 + 1 * q.val; omega
  have h1 : ((cfg3.win 1).blk t).view.emb (ix2 p (0 : Fin 1))
      = (ix2 ((((cfg3.win 3).blk t).view.emb (ix2 p q)) 0) (0 : Fin 1) : S100000x1.Idx) := by
    funext a; apply Fin.ext
    match a with
    | ⟨0, _⟩ => show win3_1.index t (0 : Fin 2) * 10000 + 1 * p.val = win3_3.index t (0 : Fin 2) * 10000 + 1 * p.val; omega
    | ⟨1, _⟩ => show win3_1.index t (1 : Fin 2) * 1 + 1 * 0 = 0; omega
  have h2 : ((cfg3.win 2).blk t).view.emb (ix2 (0 : Fin 1) q)
      = (ix2 (0 : Fin 1) ((((cfg3.win 3).blk t).view.emb (ix2 p q)) 1) : S1x128.Idx) := by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  exact scaleBias_of_reads (V c main_v41) (V c main_v17) (V c main_v42) (((cfg3.win 3).blk t).view.emb (ix2 p q))
    (Gen.iblk3 V c 0 t (ix2 p q)) (Gen.iblk3 V c 1 t (ix2 p (0 : Fin 1))) (Gen.iblk3 V c 2 t (ix2 (0 : Fin 1) q))
    (congrArg (V c main_v41 : S100000x128.Idx → EReal) h0) (congrArg (V c main_v17 : S100000x1.Idx → EReal) h1)
    (congrArg (V c main_v42 : S1x128.Idx → EReal) h2)

/-- An index of the array is in point `t`'s block iff each coordinate is in the block's range on its axis. -/
theorem mem_blk3 (t : Fin cfg3.N) (i : S100000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v43).slice (win3_3.rect t)).set ↔ _
  rw [View.set_slice_whole, Rect.mem_set_unit]
  exact Iff.rfl

/-- The ten blocks of 10000 rows cover the array: row `r` is in block `r / 10000`. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := idx_onto3 ⟨(i 0).val / 10000, by omega⟩
  have q0 : win3_3.index t (0 : Fin 2) = (i 0).val / 10000 := congrFun ht 0
  have q1 : win3_3.index t (1 : Fin 2) = 0 := congrFun ht 1
  refine ⟨t, Gen.flush3_3 t, ?_⟩
  rw [mem_blk3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 128 ≤ (i 1).val ∧ (i 1).val < win3_3.index t (1 : Fin 2) * 128 + 128; omega

/-- The array region 3 leaves: every row of the aggregate scaled by the row's scale, plus the bias row. -/
theorem final3 (V : (c : Dev nD) → (b : Ref sig .tc) → Buf (Elt Ideal) ((c : Thread nD τ).loc b)) (c : Dev nD) :
    (Gen.dat3 (F := Ideal) V c).arrAt 3 cfg3.N = Cert.Gcn.scaleBias (V c main_v41) (V c main_v17) (V c main_v42) :=
  (Gen.dat3 (F := Ideal) V c).arrAt_eq_of_cover 3 (Cert.Gcn.scaleBias (V c main_v41) (V c main_v17) (V c main_v42))
    (fun t _ => flushed3_eq V c t) cover3

end Cert.KernelIdeal.RegionValue

end
-- ==== Proof.Region4.lean ====
/-
  Region 4: what the matrix-product-and-scale call leaves in its output array, as one function of the arrays it finds.

  The grid has ten points; point t stages rows 10000 t … 10000 t + 9999 of the features and of the one-column scale,
  and the whole 128 by 128 weights, and writes back the same rows of the output. What it writes is, entry by entry,
  (∑ k, x (r, k) * w (k, q)) * scale (r, 0); the ten blocks tile the 100000 rows, so the array ends as that function
  everywhere.
-/
import proofs.«121991_j4475355922529_1_alg».proof.Proof.Gen.KernelIdeal.Frame
import proofs.«121991_j4475355922529_1_alg».proof.Proof.GcnSpec
import proofs.«121991_j4475355922529_1_alg».proof.Proof.PayMM

noncomputable section

open scoped BigOperators

namespace Cert.KernelIdeal.RegionValue

open Cert.KernelIdeal Idealize.ShloMosaic Idealize.ShloMosaic.ValueIdx Idealize.ShloMosaic.TcCoe Idealize.SL.Sem
open Idealize.ShloMosaic.Pipeline (Dat)

theorem hz4 : (![0, 0] : Fin 2 → Nat) = fun _ => 0 := funext fun a => by fin_cases a <;> rfl

/-- The printed index maps, decided over the ten grid points: the block of rows and the scale column move with the
    output's block of rows, and every other block index is zero. -/
theorem idx_facts4 : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = win4_3.index t (0 : Fin 2) ∧ win4_2.index t (1 : Fin 2) = 0
    ∧ win4_3.index t (1 : Fin 2) = 0 :=
  (by decide +kernel : ∀ t : Fin grid4.N, _)

/-- Every one of the ten row blocks is some point's. -/
theorem idx_onto4 : ∀ (q0 : Fin 10), ∃ t : Fin cfg4.N, win4_3.index t = ![q0.val, 0] :=
  (by decide +kernel : ∀ (q0 : Fin 10), ∃ t : Fin grid4.N, win4_3.index t = ![q0.val, 0])

/-- What point `t` writes back is its block of the whole-array function. -/
theorem flushed4_eq (V : (c : Dev nD) → (b : Ref sig .tc) → Buf (Elt Ideal) ((c : Thread nD τ).loc b)) (c : Dev nD) (t : Fin cfg4.N) :
    (Gen.dat4 (F := Ideal) V c).flushed 3 t
      = ((cfg4.win 3).blk t).view.read (Elt Ideal) (Cert.Gcn.scaledDense (V c main_v43) (V c main_arg6) (V c main_v17)) := by
  show (cfg4.win 3).cut (grid4.coords t) ((Gen.dat4 (F := Ideal) V c).after 3 t) = _
  rw [Gen.after4_3]
  unfold Gen.out4_3
  rw [View.canon_unit_zero hz4]
  simp only [View.ld_unit_zero (S := S10000x128) hz4, View.ld_unit_zero (S := S128x128) hz4, View.ld_unit_zero (S := S10000x1) hz4]
  funext j
  obtain ⟨p, q, rfl⟩ : ∃ (p : Fin 10000) (q : Fin 128), j = ix2 p q := ⟨j 0, j 1, eq_ix2 j⟩
  show Gen.k4_pay1 (Gen.iblk4 V c 0 t) (Gen.iblk4 V c 1 t) (Gen.iblk4 V c 2 t) (ix2 p q)
      = Cert.Gcn.scaledDense (V c main_v43) (V c main_arg6) (V c main_v17) (((cfg4.win 3).blk t).view.emb (ix2 p q))
  refine (pay4_apply (Gen.iblk4 V c 0 t) (Gen.iblk4 V c 1 t) (Gen.iblk4 V c 2 t) p q).trans ?_
  obtain ⟨e0, e1, e2, e3, e4, e5, e6⟩ := idx_facts4 t
  -- where each input block's element sits in its array: block index times block size plus the coordinate inside
  have h0 : ∀ k : Fin 128, ((cfg4.win 0).blk t).view.emb (ix2 p k)
      = (ix2 ((((cfg4.win 3).blk t).view.emb (ix2 p q)) 0) k : S100000x128.Idx) := fun k => by
    funext a; apply Fin.ext
    match a with
    | ⟨0, _⟩ => show win4_0.index t (0 : Fin 2) * 10000 + 1 * p.val = win4_3.index t (0 : Fin 2) * 10000 + 1 * p.val; omega
    | ⟨1, _⟩ => show win4_0.index t (1 : Fin 2) * 128 + 1 * k.val = k.val; omega
  have h1 : ∀ k : Fin 128, ((cfg4.win 1).blk t).view.emb (ix2 k q)
      = (ix2 k ((((cfg4.win 3).blk t).view.emb (ix2 p q)) 1) : S128x128.Idx) := fun k => by
    funext a; apply Fin.ext
    match a with
    | ⟨0, _⟩ => show win4_1.index t (0 : Fin 2) * 128 + 1 * k.val = k.val; omega
    | ⟨1, _⟩ => show win4_1.index t (1 : Fin 2) * 128 + 1 * q.val = win4_3.index t (1 : Fin 2) * 128 + 1 * q.val; omega
  have h2 : ((cfg4.win 2).blk t).view.emb (ix2 p (0 : Fin 1))
      = (ix2 ((((cfg4.win 3).blk t).view.emb (ix2 p q)) 0) (0 : Fin 1) : S100000x1.Idx) := by
    funext a; apply Fin.ext
    match a with
    | ⟨0, _⟩ => show win4_2.index t (0 : Fin 2) * 10000 + 1 * p.val = win4_3.index t (0 : Fin 2) * 10000 + 1 * p.val; omega
    | ⟨1, _⟩ => show win4_2.index t (1 : Fin 2) * 1 + 1 * 0 = 0; omega
  exact scaledDense_of_reads (V c main_v43) (V c main_arg6) (V c main_v17) (((cfg4.win 3).blk t).view.emb (ix2 p q))
    (fun k => Gen.iblk4 V c 0 t (ix2 p k)) (fun k => Gen.iblk4 V c 1 t (ix2 k q)) (Gen.iblk4 V c 2 t (ix2 p (0 : Fin 1)))
    (fun k => congrArg (V c main_v43 : S100000x128.Idx → EReal) (h0 k)) (fun k => congrArg (V c main_arg6 : S128x128.Idx → EReal) (h1 k))
    (congrArg (V c main_v17 : S100000x1.Idx → EReal) h2)

/-- An index of the array is in point `t`'s block iff each coordinate is in the block's range on its axis. -/
theorem mem_blk4 (t : Fin cfg4.N) (i : S100000x128.Idx) :
    i ∈ ((cfg4.win 3).blk t).view.set ↔ ∀ a : Fin 2, win4_3.index t a * S10000x128.size a ≤ (i a).val ∧ (i a).val < win4_3.index t a * S10000x128.size a + S10000x128.size a := by
  show i ∈ ((View.whole main_v44).slice (win4_3.rect t)).set ↔ _
  rw [View.set_slice_whole, Rect.mem_set_unit]
  exact Iff.rfl

/-- The ten blocks of 10000 rows cover the array: row `r` is in block `r / 10000`. -/
theorem cover4 (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ := idx_onto4 ⟨(i 0).val / 10000, by omega⟩
  have q0 : win4_3.index t (0 : Fin 2) = (i 0).val / 10000 := congrFun ht 0
  have q1 : win4_3.index t (1 : Fin 2) = 0 := congrFun ht 1
  refine ⟨t, Gen.flush4_3 t, ?_⟩
  rw [mem_blk4]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 128 ≤ (i 1).val ∧ (i 1).val < win4_3.index t (1 : Fin 2) * 128 + 128; omega

/-- The array region 4 leaves: the features times the weights, every row scaled by the row's scale. -/
theorem final4 (V : (c : Dev nD) → (b : Ref sig .tc) → Buf (Elt Ideal) ((c : Thread nD τ).loc b)) (c : Dev nD) :
    (Gen.dat4 (F := Ideal) V c).arrAt 3 cfg4.N = Cert.Gcn.scaledDense (V c main_v43) (V c main_arg6) (V c main_v17) :=
  (Gen.dat4 (F := Ideal) V c).arrAt_eq_of_cover 3 (Cert.Gcn.scaledDense (V c main_v43) (V c main_arg6) (V c main_v17))
    (fun t _ => flushed4_eq V c t) cover4

end Cert.KernelIdeal.RegionValue

end
-- ==== Proof.Region5.lean ====
/-
  Region 5: what the scale-and-bias call leaves in its output array, as one function of the arrays it finds.

  The grid has ten points; point t stages rows 10000 t … 10000 t + 9999 of the aggregate and of the one-column scale,
  and the whole one-row bias, and writes back the same rows of the output. What it writes is, entry by entry,
  agg (r, q) * scale (r, 0) + bias (0, q); the ten blocks tile the 100000 rows, so the array ends as that function
  everywhere.
-/
import proofs.«121991_j4475355922529_1_alg».proof.Proof.Gen.KernelIdeal.Frame
import proofs.«121991_j4475355922529_1_alg».proof.Proof.GcnSpec
import proofs.«121991_j4475355922529_1_alg».proof.Proof.PaySB

noncomputable section

namespace Cert.KernelIdeal.RegionValue

open Cert.KernelIdeal Idealize.ShloMosaic Idealize.ShloMosaic.ValueIdx Idealize.ShloMosaic.TcCoe Idealize.SL.Sem
open Idealize.ShloMosaic.Pipeline (Dat)

theorem hz5 : (![0, 0] : Fin 2 → Nat) = fun _ => 0 := funext fun a => by fin_cases a <;> rfl

/-- The printed index maps, decided over the ten grid points: the block of rows and the scale column move with the
    output's block of rows, and every other block index is zero. -/
theorem idx_facts5 : ∀ t : Fin cfg5.N,
    win5_0.index t (0 : Fin 2) = win5_3.index t (0 : Fin 2) ∧ win5_0.index t (1 : Fin 2) = 0
    ∧ win5_1.index t (0 : Fin 2) = win5_3.index t (0 : Fin 2) ∧ win5_1.index t (1 : Fin 2) = 0
    ∧ win5_2.index t (0 : Fin 2) = 0 ∧ win5_2.index t (1 : Fin 2) = 0
    ∧ win5_3.index t (1 : Fin 2) = 0 :=
  (by decide +kernel : ∀ t : Fin grid5.N, _)

/-- Every one of the ten row blocks is some point's. -/
theorem idx_onto5 : ∀ (q0 : Fin 10), ∃ t : Fin cfg5.N, win5_3.index t = ![q0.val, 0] :=
  (by decide +kernel : ∀ (q0 : Fin 10), ∃ t : Fin grid5.N, win5_3.index t = ![q0.val, 0])

/-- What point `t` writes back is its block of the whole-array function. -/
theorem flushed5_eq (V : (c : Dev nD) → (b : Ref sig .tc) → Buf (Elt Ideal) ((c : Thread nD τ).loc b)) (c : Dev nD) (t : Fin cfg5.N) :
    (Gen.dat5 (F := Ideal) V c).flushed 3 t
      = ((cfg5.win 3).blk t).view.read (Elt Ideal) (Cert.Gcn.scaleBias (V c main_v54) (V c main_v17) (V c main_v55)) := by
  show (cfg5.win 3).cut (grid5.coords t) ((Gen.dat5 (F := Ideal) V c).after 3 t) = _
  rw [Gen.after5_3]
  unfold Gen.out5_3
  rw [View.canon_unit_zero hz5]
  simp only [View.ld_unit_zero (S := S10000x128) hz5, View.ld_unit_zero (S := S10000x1) hz5, View.ld_unit_zero (S := S1x128) hz5]
  funext j
  obtain ⟨p, q, rfl⟩ : ∃ (p : Fin 10000) (q : Fin 128), j = ix2 p q := ⟨j 0, j 1, eq_ix2 j⟩
  show Gen.k5_pay1 (Gen.iblk5 V c 0 t) (Gen.iblk5 V c 1 t) (Gen.iblk5 V c 2 t) (ix2 p q)
      = Cert.Gcn.scaleBias (V c main_v54) (V c main_v17) (V c main_v55) (((cfg5.win 3).blk t).view.emb (ix2 p q))
  refine (pay5_apply (Gen.iblk5 V c 0 t) (Gen.iblk5 V c 1 t) (Gen.iblk5 V c 2 t) p q).trans ?_
  obtain ⟨e0, e1, e2, e3, e4, e5, e6⟩ := idx_facts5 t
  -- where each input block's element sits in its array: block index times block size plus the coordinate inside
  have h0 : ((cfg5.win 0).blk t).view.emb (ix2 p q) = ((cfg5.win 3).blk t).view.emb (ix2 p q) := by
    funext a; apply Fin.ext
    match a with
    | ⟨0, _⟩ => show win5_0.index t (0 : Fin 2) * 10000 + 1 * p.val = win5_3.index t (0 : Fin 2) * 10000 + 1 * p.val; omega
    | ⟨1, _⟩ => show win5_0.index t (1 : Fin 2) * 128 + 1 * q.val = win5_3.index t (1 : Fin 2) * 128 + 1 * q.val; omega
  have h1 : ((cfg5.win 1).blk t).view.emb (ix2 p (0 : Fin 1))
      = (ix2 ((((cfg5.win 3).blk t).view.emb (ix2 p q)) 0) (0 : Fin 1) : S100000x1.Idx) := by
    funext a; apply Fin.ext
    match a with
    | ⟨0, _⟩ => show win5_1.index t (0 : Fin 2) * 10000 + 1 * p.val = win5_3.index t (0 : Fin 2) * 10000 + 1 * p.val; omega
    | ⟨1, _⟩ => show win5_1.index t (1 : Fin 2) * 1 + 1 * 0 = 0; omega
  have h2 : ((cfg5.win 2).blk t).view.emb (ix2 (0 : Fin 1) q)
      = (ix2 (0 : Fin 1) ((((cfg5.win 3).blk t).view.emb (ix2 p q)) 1) : S1x128.Idx) := by
    funext a; apply Fin.ext
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega
  exact scaleBias_of_reads (V c main_v54) (V c main_v17) (V c main_v55) (((cfg5.win 3).blk t).view.emb (ix2 p q))
    (Gen.iblk5 V c 0 t (ix2 p q)) (Gen.iblk5 V c 1 t (ix2 p (0 : Fin 1))) (Gen.iblk5 V c 2 t (ix2 (0 : Fin 1) q))
    (congrArg (V c main_v54 : S100000x128.Idx → EReal) h0) (congrArg (V c main_v17 : S100000x1.Idx → EReal) h1)
    (congrArg (V c main_v55 : S1x128.Idx → EReal) h2)

/-- An index of the array is in point `t`'s block iff each coordinate is in the block's range on its axis. -/
theorem mem_blk5 (t : Fin cfg5.N) (i : S100000x128.Idx) :
    i ∈ ((cfg5.win 3).blk t).view.set ↔ ∀ a : Fin 2, win5_3.index t a * S10000x128.size a ≤ (i a).val ∧ (i a).val < win5_3.index t a * S10000x128.size a + S10000x128.size a := by
  show i ∈ ((View.whole main_v56).slice (win5_3.rect t)).set ↔ _
  rw [View.set_slice_whole, Rect.mem_set_unit]
  exact Iff.rfl

/-- The ten blocks of 10000 rows cover the array: row `r` is in block `r / 10000`. -/
theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := idx_onto5 ⟨(i 0).val / 10000, by omega⟩
  have q0 : win5_3.index t (0 : Fin 2) = (i 0).val / 10000 := congrFun ht 0
  have q1 : win5_3.index t (1 : Fin 2) = 0 := congrFun ht 1
  refine ⟨t, Gen.flush5_3 t, ?_⟩
  rw [mem_blk5]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 128 ≤ (i 1).val ∧ (i 1).val < win5_3.index t (1 : Fin 2) * 128 + 128; omega

/-- The array region 5 leaves: every row of the aggregate scaled by the row's scale, plus the bias row. -/
theorem final5 (V : (c : Dev nD) → (b : Ref sig .tc) → Buf (Elt Ideal) ((c : Thread nD τ).loc b)) (c : Dev nD) :
    (Gen.dat5 (F := Ideal) V c).arrAt 3 cfg5.N = Cert.Gcn.scaleBias (V c main_v54) (V c main_v17) (V c main_v55) :=
  (Gen.dat5 (F := Ideal) V c).arrAt_eq_of_cover 3 (Cert.Gcn.scaleBias (V c main_v54) (V c main_v17) (V c main_v55))
    (fun t _ => flushed5_eq V c t) cover5

end Cert.KernelIdeal.RegionValue

end
-- ==== Proof.RefFacts.lean ====
/-
  Two facts about the reference program's edge data.

  (1) An edge whose raw target index reads as a node number r has r as its clamped target row. The program wraps a
  negative index around by adding the node count, and leaves any other index alone; the gather then clamps into the node
  range. An index that reads as r is not negative, so it is left alone, and r is already in range.

  (2) The node scale is a non-negative real at every node. Where the degree is not positive the scale is the constant 0.
  Where it is positive the scale is the inverse square root of max(degree, 1); that maximum is at least 1 whatever the
  degree is, and the inverse square root of an extended real y ≥ 1 is 0 at +∞ and the real 1/√y otherwise.
-/
import proofs.«121991_j4475355922529_1_alg».proof.Proof.RefData

noncomputable section

namespace Cert.ReferenceIdeal.RefValue

open Cert.ReferenceIdeal Cert.ReferenceIdeal.Read Idealize.ShloMosaic Idealize.ShloMosaic.ValueIdx

/-- The clamped target row of an edge whose raw target index reads as the node r is r. -/
theorem gdR_of_target (x1 : (⟨S2x1600000, .i32⟩ : BufTy).Contents (Elt Ideal)) (a : Fin 1700000) (r : Fin 100000)
    (h : (Read.val_main_v44 (F := Ideal) x1 (ix2 a 0)).toInt = (r.val : ℤ)) : gdR x1 a = r := by
  unfold gdR
  apply Cert.GatherRows.rowOf_eq
  rw [val_main_v44_apply] at h
  rw [val_main_v29_apply, val_main_v28_apply]
  -- the index is not negative, so the signed comparison with 0 gives the bit 0
  have hbit : val_main_v25 (F := Ideal) x1 (idx_main_v29 (ix2 a 0)) = 0#1 := by
    apply eq_zero_of_ne_one
    intro h1
    rw [val_main_v25_apply] at h1
    have hlt := IntOp.cmpi_slt.mp h1
    rw [val_main_v24_apply, val_main_c_5_apply] at hlt
    have h0 : (0#32 : BitVec 32).toInt = 0 := by decide
    rw [h0] at hlt
    have hr : (val_main_v6 (F := Ideal) x1 (idx_main_v29 (ix2 a 0))).toInt = (r.val : ℤ) := h
    omega
  rw [hbit, select_zero]
  exact h

/-- The inverse square root of an extended real that is at least 1 is a non-negative real. -/
theorem rsqrt_nonneg_real_of_one_le (y : EReal) (hy : 1 ≤ y) : 0 ≤ Ideal.rsqrt y ∧ Ideal.rsqrt y ≠ ⊤ := by
  induction y using EReal.rec with
  | bot => exact absurd (le_bot_iff.mp hy) (EReal.coe_ne_bot 1)
  | top => simp
  | coe t =>
    have ht : (1 : ℝ) ≤ t := by exact_mod_cast hy
    have hn : ¬ t < 0 := by linarith
    have hz : ¬ t = 0 := by intro h0; rw [h0] at ht; linarith
    rw [Ideal.rsqrt_coe, if_neg hn, if_neg hz]
    refine ⟨?_, EReal.coe_ne_top _⟩
    exact_mod_cast inv_nonneg.mpr (Real.sqrt_nonneg t)

/-- The node scale is a non-negative real at every node. -/
theorem disR_nonneg_real (x1 : (⟨S2x1600000, .i32⟩ : BufTy).Contents (Elt Ideal)) (r : Fin 100000) :
    0 ≤ disR x1 r ∧ disR x1 r ≠ ⊤ := by
  unfold disR
  rw [val_main_v16_apply]
  by_cases hb : val_main_v12 (F := Ideal) x1 (ix1 r) = 1#1
  · -- positive degree: the inverse square root of max(degree, 1)
    rw [hb, select_one, val_main_v15_apply, val_main_v14_apply, val_main_v13_apply, val_main_cst_2_apply]
    rw [Ideal.hostUnary_rsqrt_def, Ideal.maximumf_def, Ideal.ofBits_def]
    have h1 : Ideal.ofBits .f32 0x3F800000#32 = 1 := IdealRules.sign_bit.ideal_onePat .f32
    rw [h1]
    exact rsqrt_nonneg_real_of_one_le _ (le_max_right _ _)
  · -- otherwise the constant 0
    rw [eq_zero_of_ne_one hb, select_zero, val_main_call0_v1_apply, val_main_call0_v0_apply, val_main_cst_3_apply]
    rw [Ideal.ofBits_def, Ideal.ofBits_zero_f32]
    exact ⟨le_refl _, EReal.zero_ne_top⟩

end Cert.ReferenceIdeal.RefValue

end
-- ==== Proof.Bridge.lean ====
/-
  The two arrangements of the three-layer network agree at the programs' own edge data.

  The kernel program and the reference program compute the same three quantities from the edge-index argument, each in
  its own words: the source row of every edge (the source index wrapped around when negative, then clamped into the
  node range), the raw target index of every edge, and the scale of every node. The first two are the same operations
  on the same operand, so they are the same arrays; the third differs by a reshape of a vector of 100000 entries into
  one column, which keeps entry r at row r.

  With those identified, each layer in the node arrangement (the target node's scale outside the sum over edges)
  equals the layer in the edge arrangement (both scales inside): an edge whose raw target index reads as node r has r
  as its clamped target, and every node's scale is a non-negative real, which is what lets the factor move through
  the sum. Three layers, innermost first, each fed the previous one's result.
-/
import proofs.«121991_j4475355922529_1_alg».proof.KernelIdeal
import proofs.«121991_j4475355922529_1_alg».proof.Proof.Gen.KernelIdeal
import proofs.«121991_j4475355922529_1_alg».proof.Proof.RefFacts
import proofs.«121991_j4475355922529_1_alg».proof.Proof.GcnSpec
import Idealize.ShloMosaic.Lib.Pipeline.Value

noncomputable section

namespace Cert.Proof.Bridge

open Cert.KernelIdeal Cert.KernelIdeal.Facts₀ Idealize.ShloMosaic Idealize.ShloMosaic.ValueIdx
open Cert.ReferenceIdeal.RefValue (gsR gdR disR gdR_of_target disR_nonneg_real)

/-- The source rows: the same wrap-around and clamp of the same source indices. -/
theorem gs_eq (x1 : IVec S2x1600000 32) (hpos : 0 < 100000) :
    (Cert.GatherRows.rowOf hpos (broadcastInDim S1700000x1 ![0] bcast_S1700000_S1700000x1_0
        (select (cmpi .slt (Cert.ReferenceIdeal.Read.val_main_v3 (F := Ideal) x1) (broadcastInDim S1700000 ![] bcast_S_S1700000 (constantI S_ 32 0#32)))
          (addi (Cert.ReferenceIdeal.Read.val_main_v3 (F := Ideal) x1) (broadcastInDim S1700000 ![] bcast_S_S1700000 (constantI S_ 32 100000#32)))
          (Cert.ReferenceIdeal.Read.val_main_v3 (F := Ideal) x1))))
      = gsR x1 := rfl

/-- The raw target indices: the same column of the same indices. -/
theorem idx_eq (x1 : IVec S2x1600000 32) :
    (broadcastInDim S1700000x1 ![0] bcast_S1700000_S1700000x1_0 (Cert.ReferenceIdeal.Read.val_main_v6 (F := Ideal) x1))
      = (Cert.ReferenceIdeal.Read.val_main_v44 (F := Ideal) x1) := rfl

/-- The node scales: the vector of scales reshaped into one column keeps entry `r` at row `r`. -/
theorem dis_eq (x1 : IVec S2x1600000 32) :
    (fun r : Fin 100000 => shapeCast S100000x1 (Cert.ReferenceIdeal.Read.val_main_v16 (F := Ideal) x1) shapeCasts_S100000_S100000x1 (ix2 r 0))
      = disR x1 := by
  funext r
  show shapeCast S100000x1 (Cert.ReferenceIdeal.Read.val_main_v16 (F := Ideal) x1) shapeCasts_S100000_S100000x1 (ix2 r 0)
      = Cert.ReferenceIdeal.Read.val_main_v16 (F := Ideal) x1 (ix1 r)
  refine shapeCast_apply _ _ (ix2 r 0) (ix1 r) ?_
  rw [Shape.rowMajor_val_one, Shape.rowMajor_val_two]
  show r.val = r.val * 1 + 0
  omega

/-- Three layers in the node arrangement equal three layers in the edge arrangement, for ANY edge data that equal the
    reference's: each layer is rewritten as a whole, never opened. -/
theorem net_of_eq (x1 : IVec S2x1600000 32)
    (x0 : FVec Ideal S100000x128 .f32) (x2 : FVec Ideal S128x128 .f32) (x3 : FVec Ideal S128 .f32)
    (x4 : FVec Ideal S128x128 .f32) (x5 : FVec Ideal S128 .f32) (x6 : FVec Ideal S128x128 .f32) (x7 : FVec Ideal S128 .f32)
    (gs : Fin 1700000 → Fin 100000) (I : IVec S1700000x1 32) (dis : Fin 100000 → EReal)
    (h1 : gs = gsR x1) (h2 : I = (Cert.ReferenceIdeal.Read.val_main_v44 (F := Ideal) x1)) (h3 : dis = disR x1) :
    Cert.Gcn.kerLayer gs I dis (Cert.Gcn.kerLayer gs I dis (Cert.Gcn.kerLayer gs I dis x0 x2 x3) x4 x5) x6 x7
      = Cert.Gcn.refLayer (gsR x1) (gdR x1) (Cert.ReferenceIdeal.Read.val_main_v44 (F := Ideal) x1) (disR x1)
          (Cert.Gcn.refLayer (gsR x1) (gdR x1) (Cert.ReferenceIdeal.Read.val_main_v44 (F := Ideal) x1) (disR x1)
            (Cert.Gcn.refLayer (gsR x1) (gdR x1) (Cert.ReferenceIdeal.Read.val_main_v44 (F := Ideal) x1) (disR x1) x0 x2 x3) x4 x5) x6 x7 := by
  subst h1 h2 h3
  rw [Cert.Gcn.layer_eq (gsR x1) (gdR x1) (Cert.ReferenceIdeal.Read.val_main_v44 (F := Ideal) x1) (disR x1) (gdR_of_target x1) (disR_nonneg_real x1),
    Cert.Gcn.layer_eq (gsR x1) (gdR x1) (Cert.ReferenceIdeal.Read.val_main_v44 (F := Ideal) x1) (disR x1) (gdR_of_target x1) (disR_nonneg_real x1),
    Cert.Gcn.layer_eq (gsR x1) (gdR x1) (Cert.ReferenceIdeal.Read.val_main_v44 (F := Ideal) x1) (disR x1) (gdR_of_target x1) (disR_nonneg_real x1)]

/-- The network of the kernel program, in its own edge data, is the network of the reference program in its own. -/
theorem net_bridge (x0 : FVec Ideal S100000x128 .f32) (x1 : IVec S2x1600000 32) (x2 : FVec Ideal S128x128 .f32)
    (x3 : FVec Ideal S128 .f32) (x4 : FVec Ideal S128x128 .f32) (x5 : FVec Ideal S128 .f32)
    (x6 : FVec Ideal S128x128 .f32) (x7 : FVec Ideal S128 .f32) (hpos : 0 < 100000) :
    Cert.Gcn.kerLayer (Cert.GatherRows.rowOf hpos (broadcastInDim S1700000x1 ![0] bcast_S1700000_S1700000x1_0
        (select (cmpi .slt (Cert.ReferenceIdeal.Read.val_main_v3 (F := Ideal) x1) (broadcastInDim S1700000 ![] bcast_S_S1700000 (constantI S_ 32 0#32)))
          (addi (Cert.ReferenceIdeal.Read.val_main_v3 (F := Ideal) x1) (broadcastInDim S1700000 ![] bcast_S_S1700000 (constantI S_ 32 100000#32)))
          (Cert.ReferenceIdeal.Read.val_main_v3 (F := Ideal) x1))))
        (broadcastInDim S1700000x1 ![0] bcast_S1700000_S1700000x1_0 (Cert.ReferenceIdeal.Read.val_main_v6 (F := Ideal) x1))
        (fun r : Fin 100000 => shapeCast S100000x1 (Cert.ReferenceIdeal.Read.val_main_v16 (F := Ideal) x1) shapeCasts_S100000_S100000x1 (ix2 r 0))
        (Cert.Gcn.kerLayer (Cert.GatherRows.rowOf hpos (broadcastInDim S1700000x1 ![0] bcast_S1700000_S1700000x1_0
        (select (cmpi .slt (Cert.ReferenceIdeal.Read.val_main_v3 (F := Ideal) x1) (broadcastInDim S1700000 ![] bcast_S_S1700000 (constantI S_ 32 0#32)))
          (addi (Cert.ReferenceIdeal.Read.val_main_v3 (F := Ideal) x1) (broadcastInDim S1700000 ![] bcast_S_S1700000 (constantI S_ 32 100000#32)))
          (Cert.ReferenceIdeal.Read.val_main_v3 (F := Ideal) x1))))
          (broadcastInDim S1700000x1 ![0] bcast_S1700000_S1700000x1_0 (Cert.ReferenceIdeal.Read.val_main_v6 (F := Ideal) x1))
          (fun r : Fin 100000 => shapeCast S100000x1 (Cert.ReferenceIdeal.Read.val_main_v16 (F := Ideal) x1) shapeCasts_S100000_S100000x1 (ix2 r 0))
          (Cert.Gcn.kerLayer (Cert.GatherRows.rowOf hpos (broadcastInDim S1700000x1 ![0] bcast_S1700000_S1700000x1_0
        (select (cmpi .slt (Cert.ReferenceIdeal.Read.val_main_v3 (F := Ideal) x1) (broadcastInDim S1700000 ![] bcast_S_S1700000 (constantI S_ 32 0#32)))
          (addi (Cert.ReferenceIdeal.Read.val_main_v3 (F := Ideal) x1) (broadcastInDim S1700000 ![] bcast_S_S1700000 (constantI S_ 32 100000#32)))
          (Cert.ReferenceIdeal.Read.val_main_v3 (F := Ideal) x1))))
            (broadcastInDim S1700000x1 ![0] bcast_S1700000_S1700000x1_0 (Cert.ReferenceIdeal.Read.val_main_v6 (F := Ideal) x1))
            (fun r : Fin 100000 => shapeCast S100000x1 (Cert.ReferenceIdeal.Read.val_main_v16 (F := Ideal) x1) shapeCasts_S100000_S100000x1 (ix2 r 0))
            x0 x2 x3) x4 x5) x6 x7
      = Cert.Gcn.refLayer (gsR x1) (gdR x1) (Cert.ReferenceIdeal.Read.val_main_v44 (F := Ideal) x1) (disR x1)
          (Cert.Gcn.refLayer (gsR x1) (gdR x1) (Cert.ReferenceIdeal.Read.val_main_v44 (F := Ideal) x1) (disR x1)
            (Cert.Gcn.refLayer (gsR x1) (gdR x1) (Cert.ReferenceIdeal.Read.val_main_v44 (F := Ideal) x1) (disR x1) x0 x2 x3) x4 x5) x6 x7 :=
  net_of_eq x1 x0 x2 x3 x4 x5 x6 x7 _ _ _ (gs_eq x1 hpos) (idx_eq x1) (dis_eq x1)

end Cert.Proof.Bridge

end
-- ==== Proof.lean ====
/-
  The certificate of a three-layer graph convolution with symmetric normalisation: the kernel program runs each layer as a
  dense pass (the feature matrix times the weights, each row scaled by the inverse square root of its node's degree),
  an aggregation over the edges and a closing pass (each row scaled again, the bias added); the reference scales each
  edge's message by the product of its two endpoints' scales before aggregating. On the extended reals the two agree
  for EVERY input, finite or not: an edge that lands on a node has that node as its target, so the target's scale is a
  common factor of the node's sum, and it is a non-negative real (it depends on the edge list only), which may be
  moved across an extended-real sum. The precondition is therefore never opened.

  The three frames: the kernel programs' are the generated frame proofs; the reference's is its run with the result
  dropped. Nothing was rewritten by the idealization, so there is nothing to preserve. The value claim: the kernel
  program's run names its result array at the last boundary's contents, read back through the six regions and the host
  stretches as three layers in the node arrangement; the reference's run ends at its composed term, read stage by stage
  as three layers in the edge arrangement; the bridge equates the two at the programs' own edge data.
-/
import proofs.«121991_j4475355922529_1_alg».proof.Defs
import proofs.«121991_j4475355922529_1_alg».proof.Proof.Gen.Kernel
import proofs.«121991_j4475355922529_1_alg».proof.Proof.Gen.Kernel.Skeleton
import proofs.«121991_j4475355922529_1_alg».proof.Proof.Gen.Kernel.Launch
import proofs.«121991_j4475355922529_1_alg».proof.Proof.Gen.Kernel.Points
import proofs.«121991_j4475355922529_1_alg».proof.Proof.Gen.Kernel.Frame
import proofs.«121991_j4475355922529_1_alg».proof.Proof.Gen.KernelIdeal
import proofs.«121991_j4475355922529_1_alg».proof.Proof.Gen.KernelIdeal.Skeleton
import proofs.«121991_j4475355922529_1_alg».proof.Proof.Gen.KernelIdeal.Launch
import proofs.«121991_j4475355922529_1_alg».proof.Proof.Gen.KernelIdeal.Points
import proofs.«121991_j4475355922529_1_alg».proof.Proof.Gen.KernelIdeal.Frame
import proofs.«121991_j4475355922529_1_alg».proof.Proof.Gen.ReferenceIdeal
import proofs.«121991_j4475355922529_1_alg».proof.Proof.Gen.Pre_finite_inputs
import proofs.«121991_j4475355922529_1_alg».proof.Proof.RefRead
import proofs.«121991_j4475355922529_1_alg».proof.Proof.RefClosed
import proofs.«121991_j4475355922529_1_alg».proof.Proof.KRun
import proofs.«121991_j4475355922529_1_alg».proof.Proof.KChain
import proofs.«121991_j4475355922529_1_alg».proof.Proof.Region0
import proofs.«121991_j4475355922529_1_alg».proof.Proof.Region1
import proofs.«121991_j4475355922529_1_alg».proof.Proof.Region2
import proofs.«121991_j4475355922529_1_alg».proof.Proof.Region3
import proofs.«121991_j4475355922529_1_alg».proof.Proof.Region4
import proofs.«121991_j4475355922529_1_alg».proof.Proof.Region5
import proofs.«121991_j4475355922529_1_alg».proof.Proof.Bridge
import Idealize.ShloMosaic.Adequacy
import Idealize.ShloMosaic.Init

noncomputable section

namespace Cert.Proof

open Idealize.ShloMosaic Idealize.SL.Sem

/-- What each region of the idealized kernel program leaves in its output array. -/
theorem regionFinals : Cert.KernelIdeal.NetValue.RegionFinals :=
  ⟨Cert.KernelIdeal.RegionValue.final0, Cert.KernelIdeal.RegionValue.final1, Cert.KernelIdeal.RegionValue.final2,
    Cert.KernelIdeal.RegionValue.final3, Cert.KernelIdeal.RegionValue.final4, Cert.KernelIdeal.RegionValue.final5⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel program's three layers over its launch memory are the reference's three layers over the same arguments. -/
theorem net_eq (m : (ℓ : Loc Cert.KernelIdeal.nD Cert.KernelIdeal.τ Cert.KernelIdeal.sig) → Buf (Elt Ideal) ℓ)
    (c : Dev Cert.KernelIdeal.nD) :
    Cert.ReferenceIdeal.Read.val_main_v82 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.NetValue.h3K m c := by
  rw [Cert.ReferenceIdeal.RefValue.ref_closed]
  unfold Cert.KernelIdeal.NetValue.h3K Cert.KernelIdeal.NetValue.h2K Cert.KernelIdeal.NetValue.h1K Cert.KernelIdeal.NetValue.layerK
  exact (Cert.Proof.Bridge.net_of_eq _ _ _ _ _ _ _ _ _ _ _
    (Cert.Proof.Bridge.gs_eq _ Cert.KernelIdeal.NetValue.nodes_pos) (Cert.Proof.Bridge.idx_eq _) (Cert.Proof.Bridge.dis_eq _)).symm

theorem preserves : Cert.preserves_Kernel_KernelIdeal := trivial

/-- Both idealized programs, run from memories agreeing on the arguments, end with the same result array. -/
theorem algebraic : Cert.algebraic_KernelIdeal_ReferenceIdeal := by
  intro m ρ m' ρ' _ hagree
  refine ⟨fun c => Cert.KernelIdeal.NetValue.h3K m c, ?_, ?_⟩
  · exact (θ_run Cert.KernelIdeal.defs _ _).mono
      (fun r h c => ⟨(h c).1.trans (Cert.KernelIdeal.NetValue.result_eq m ρ c regionFinals), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v82_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact net_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
